-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x64x512x512 : Shape := ⟨5, ![1, 1, 64, 512, 512]⟩
abbrev S_ : Shape := ⟨0, ![]⟩

class Facts : Prop where
  bcast_S_S1x1x64x512x512 : S_.BroadcastsInDim S1x1x64x512x512 (![] : Fin 0 → Fin S1x1x64x512x512.rank)
  reducesTo_S1x1x64x512x512_S_d0_1_2_3_4 : S1x1x64x512x512.ReducesTo [0, 1, 2, 3, 4] S_
  h_S_ : 0 < S_.numel

variable [Facts]

def fn {F : FTy → Type} [FloatOps F] (main_arg0 : FVec F S1x1x64x512x512 .f32) : IVec S_ 1 :=
  let main_v0 : FVec F S1x1x64x512x512 .f32 := Host.absf main_arg0
  let main_cst : FVec F S_ .f32 := constant S_ .f32 0x7F800000#32
  let main_v1 : FVec F S1x1x64x512x512 .f32 := broadcastInDim S1x1x64x512x512 ![] bcast_S_S1x1x64x512x512 main_cst
  let main_v2 : IVec S1x1x64x512x512 1 := cmpf .olt main_v0 main_v1
  let main_c : IVec S_ 1 := constantI S_ 1 1#1
  let main_v3 : IVec S_ 1 := (fun x v => Host.reduce IntOp.andi x v reducesTo_S1x1x64x512x512_S_d0_1_2_3_4 h_S_) main_v2 main_c
  main_v3
-- ==== Kernel.lean ====
abbrev S1x1x64x512x512 : Shape := ⟨5, ![1, 1, 64, 512, 512]⟩
abbrev S64x512x512 : Shape := ⟨3, ![64, 512, 512]⟩
abbrev S8x32x512 : Shape := ⟨3, ![8, 32, 512]⟩
abbrev S8x32x1 : Shape := ⟨3, ![8, 32, 1]⟩
abbrev S8x32x511 : Shape := ⟨3, ![8, 32, 511]⟩
abbrev S8x32x2 : Shape := ⟨3, ![8, 32, 2]⟩
abbrev S8x32x510 : Shape := ⟨3, ![8, 32, 510]⟩
abbrev S8x32x3 : Shape := ⟨3, ![8, 32, 3]⟩
abbrev S8x32x509 : Shape := ⟨3, ![8, 32, 509]⟩
abbrev S8x32x4 : Shape := ⟨3, ![8, 32, 4]⟩
abbrev S8x32x508 : Shape := ⟨3, ![8, 32, 508]⟩
abbrev S8x512x128 : Shape := ⟨3, ![8, 512, 128]⟩
abbrev S8x1x128 : Shape := ⟨3, ![8, 1, 128]⟩
abbrev S8x511x128 : Shape := ⟨3, ![8, 511, 128]⟩
abbrev S8x2x128 : Shape := ⟨3, ![8, 2, 128]⟩
abbrev S8x510x128 : Shape := ⟨3, ![8, 510, 128]⟩
abbrev S8x3x128 : Shape := ⟨3, ![8, 3, 128]⟩
abbrev S8x509x128 : Shape := ⟨3, ![8, 509, 128]⟩
abbrev S8x4x128 : Shape := ⟨3, ![8, 4, 128]⟩
abbrev S8x508x128 : Shape := ⟨3, ![8, 508, 128]⟩
abbrev S64x8x512 : Shape := ⟨3, ![64, 8, 512]⟩
abbrev S1x8x512 : Shape := ⟨3, ![1, 8, 512]⟩
abbrev S63x8x512 : Shape := ⟨3, ![63, 8, 512]⟩
abbrev S2x8x512 : Shape := ⟨3, ![2, 8, 512]⟩
abbrev S62x8x512 : Shape := ⟨3, ![62, 8, 512]⟩
abbrev S3x8x512 : Shape := ⟨3, ![3, 8, 512]⟩
abbrev S61x8x512 : Shape := ⟨3, ![61, 8, 512]⟩
abbrev S4x8x512 : Shape := ⟨3, ![4, 8, 512]⟩
abbrev S60x8x512 : Shape := ⟨3, ![60, 8, 512]⟩

abbrev nBuf : Space → Nat
  | .hbm => 5
  | .vmem => 14
  | .smem => 0
  | _ => 0

abbrev bufTy : (tb : Table) → Fin (tcTables nBuf tb) → BufTy
  | .hbm, ⟨0, _⟩ => ⟨S1x1x64x512x512, .f32⟩
  | .hbm, ⟨1, _⟩ => ⟨S64x512x512, .f32⟩
  | .hbm, ⟨2, _⟩ => ⟨S64x512x512, .f32⟩
  | .hbm, ⟨3, _⟩ => ⟨S64x512x512, .f32⟩
  | .hbm, ⟨4, _⟩ => ⟨S64x512x512, .f32⟩
  | .local _ .vmem, ⟨0, _⟩ => ⟨S8x32x512, .f32⟩
  | .local _ .vmem, ⟨1, _⟩ => ⟨S8x32x512, .f32⟩
  | .local _ .vmem, ⟨2, _⟩ => ⟨S8x32x512, .f32⟩
  | .local _ .vmem, ⟨3, _⟩ => ⟨S8x32x512, .f32⟩
  | .local _ .vmem, ⟨4, _⟩ => ⟨S8x512x128, .f32⟩
  | .local _ .vmem, ⟨5, _⟩ => ⟨S8x512x128, .f32⟩
  | .local _ .vmem, ⟨6, _⟩ => ⟨S8x512x128, .f32⟩
  | .local _ .vmem, ⟨7, _⟩ => ⟨S8x512x128, .f32⟩
  | .local _ .vmem, ⟨8, _⟩ => ⟨S64x8x512, .f32⟩
  | .local _ .vmem, ⟨9, _⟩ => ⟨S64x8x512, .f32⟩
  | .local _ .vmem, ⟨10, _⟩ => ⟨S64x8x512, .f32⟩
  | .local _ .vmem, ⟨11, _⟩ => ⟨S64x8x512, .f32⟩
  | .local _ .vmem, ⟨12, _⟩ => ⟨S64x8x512, .f32⟩
  | .local _ .vmem, ⟨13, _⟩ => ⟨S64x8x512, .f32⟩
  | _, _ => ⟨S1x1x64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S8x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S64x8x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x8x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x8x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S1x1x64x512x512_S64x512x512 : S1x1x64x512x512.ShapeCasts S64x512x512
  inb_S8x32x512_S8x32x512_0_0_0 : ∀ a, (![0, 0, 0] : Fin 3 → Nat) a + S8x32x512.size a ≤ S8x32x512.size a
  h_S8x32x512 : 0 < S8x32x512.numel
  shapeCasts_S8x32x512_S8x32x512 : S8x32x512.ShapeCasts S8x32x512
  slices_S8x32x512_o0_0_1_S8x32x511 : S8x32x512.Slices ![0, 0, 1] S8x32x511
  concatenates_S8x32x511_S8x32x1_S8x32x512_d2 : Shape.Concatenates [S8x32x511, S8x32x1] S8x32x512 2
  slices_S8x32x512_o0_0_0_S8x32x511 : S8x32x512.Slices ![0, 0, 0] S8x32x511
  concatenates_S8x32x1_S8x32x511_S8x32x512_d2 : Shape.Concatenates [S8x32x1, S8x32x511] S8x32x512 2
  slices_S8x32x512_o0_0_2_S8x32x510 : S8x32x512.Slices ![0, 0, 2] S8x32x510
  concatenates_S8x32x510_S8x32x2_S8x32x512_d2 : Shape.Concatenates [S8x32x510, S8x32x2] S8x32x512 2
  slices_S8x32x512_o0_0_0_S8x32x510 : S8x32x512.Slices ![0, 0, 0] S8x32x510
  concatenates_S8x32x2_S8x32x510_S8x32x512_d2 : Shape.Concatenates [S8x32x2, S8x32x510] S8x32x512 2
  slices_S8x32x512_o0_0_3_S8x32x509 : S8x32x512.Slices ![0, 0, 3] S8x32x509
  concatenates_S8x32x509_S8x32x3_S8x32x512_d2 : Shape.Concatenates [S8x32x509, S8x32x3] S8x32x512 2
  slices_S8x32x512_o0_0_0_S8x32x509 : S8x32x512.Slices ![0, 0, 0] S8x32x509
  concatenates_S8x32x3_S8x32x509_S8x32x512_d2 : Shape.Concatenates [S8x32x3, S8x32x509] S8x32x512 2
  slices_S8x32x512_o0_0_4_S8x32x508 : S8x32x512.Slices ![0, 0, 4] S8x32x508
  concatenates_S8x32x508_S8x32x4_S8x32x512_d2 : Shape.Concatenates [S8x32x508, S8x32x4] S8x32x512 2
  slices_S8x32x512_o0_0_0_S8x32x508 : S8x32x512.Slices ![0, 0, 0] S8x32x508
  concatenates_S8x32x4_S8x32x508_S8x32x512_d2 : Shape.Concatenates [S8x32x4, S8x32x508] S8x32x512 2
  inb_S8x512x128_S8x512x128_0_0_0 : ∀ a, (![0, 0, 0] : Fin 3 → Nat) a + S8x512x128.size a ≤ S8x512x128.size a
  h_S8x512x128 : 0 < S8x512x128.numel
  shapeCasts_S8x512x128_S8x512x128 : S8x512x128.ShapeCasts S8x512x128
  slices_S8x512x128_o0_1_0_S8x511x128 : S8x512x128.Slices ![0, 1, 0] S8x511x128
  concatenates_S8x511x128_S8x1x128_S8x512x128_d1 : Shape.Concatenates [S8x511x128, S8x1x128] S8x512x128 1
  slices_S8x512x128_o0_0_0_S8x511x128 : S8x512x128.Slices ![0, 0, 0] S8x511x128
  concatenates_S8x1x128_S8x511x128_S8x512x128_d1 : Shape.Concatenates [S8x1x128, S8x511x128] S8x512x128 1
  slices_S8x512x128_o0_2_0_S8x510x128 : S8x512x128.Slices ![0, 2, 0] S8x510x128
  concatenates_S8x510x128_S8x2x128_S8x512x128_d1 : Shape.Concatenates [S8x510x128, S8x2x128] S8x512x128 1
  slices_S8x512x128_o0_0_0_S8x510x128 : S8x512x128.Slices ![0, 0, 0] S8x510x128
  concatenates_S8x2x128_S8x510x128_S8x512x128_d1 : Shape.Concatenates [S8x2x128, S8x510x128] S8x512x128 1
  slices_S8x512x128_o0_3_0_S8x509x128 : S8x512x128.Slices ![0, 3, 0] S8x509x128
  concatenates_S8x509x128_S8x3x128_S8x512x128_d1 : Shape.Concatenates [S8x509x128, S8x3x128] S8x512x128 1
  slices_S8x512x128_o0_0_0_S8x509x128 : S8x512x128.Slices ![0, 0, 0] S8x509x128
  concatenates_S8x3x128_S8x509x128_S8x512x128_d1 : Shape.Concatenates [S8x3x128, S8x509x128] S8x512x128 1
  slices_S8x512x128_o0_4_0_S8x508x128 : S8x512x128.Slices ![0, 4, 0] S8x508x128
  concatenates_S8x508x128_S8x4x128_S8x512x128_d1 : Shape.Concatenates [S8x508x128, S8x4x128] S8x512x128 1
  slices_S8x512x128_o0_0_0_S8x508x128 : S8x512x128.Slices ![0, 0, 0] S8x508x128
  concatenates_S8x4x128_S8x508x128_S8x512x128_d1 : Shape.Concatenates [S8x4x128, S8x508x128] S8x512x128 1
  inb_S64x8x512_S64x8x512_0_0_0 : ∀ a, (![0, 0, 0] : Fin 3 → Nat) a + S64x8x512.size a ≤ S64x8x512.size a
  h_S64x8x512 : 0 < S64x8x512.numel
  shapeCasts_S64x8x512_S64x8x512 : S64x8x512.ShapeCasts S64x8x512
  slices_S64x8x512_o1_0_0_S63x8x512 : S64x8x512.Slices ![1, 0, 0] S63x8x512
  concatenates_S63x8x512_S1x8x512_S64x8x512_d0 : Shape.Concatenates [S63x8x512, S1x8x512] S64x8x512 0
  slices_S64x8x512_o0_0_0_S63x8x512 : S64x8x512.Slices ![0, 0, 0] S63x8x512
  concatenates_S1x8x512_S63x8x512_S64x8x512_d0 : Shape.Concatenates [S1x8x512, S63x8x512] S64x8x512 0
  slices_S64x8x512_o2_0_0_S62x8x512 : S64x8x512.Slices ![2, 0, 0] S62x8x512
  concatenates_S62x8x512_S2x8x512_S64x8x512_d0 : Shape.Concatenates [S62x8x512, S2x8x512] S64x8x512 0
  slices_S64x8x512_o0_0_0_S62x8x512 : S64x8x512.Slices ![0, 0, 0] S62x8x512
  concatenates_S2x8x512_S62x8x512_S64x8x512_d0 : Shape.Concatenates [S2x8x512, S62x8x512] S64x8x512 0
  slices_S64x8x512_o3_0_0_S61x8x512 : S64x8x512.Slices ![3, 0, 0] S61x8x512
  concatenates_S61x8x512_S3x8x512_S64x8x512_d0 : Shape.Concatenates [S61x8x512, S3x8x512] S64x8x512 0
  slices_S64x8x512_o0_0_0_S61x8x512 : S64x8x512.Slices ![0, 0, 0] S61x8x512
  concatenates_S3x8x512_S61x8x512_S64x8x512_d0 : Shape.Concatenates [S3x8x512, S61x8x512] S64x8x512 0
  slices_S64x8x512_o4_0_0_S60x8x512 : S64x8x512.Slices ![4, 0, 0] S60x8x512
  concatenates_S60x8x512_S4x8x512_S64x8x512_d0 : Shape.Concatenates [S60x8x512, S4x8x512] S64x8x512 0
  slices_S64x8x512_o0_0_0_S60x8x512 : S64x8x512.Slices ![0, 0, 0] S60x8x512
  concatenates_S4x8x512_S60x8x512_S64x8x512_d0 : Shape.Concatenates [S4x8x512, S60x8x512] S64x8x512 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x512.size a ≤ S64x512x512.size a
  hwx0_0 : ∀ i : grid0.Coords, EltTy.bits .f32 = 32 ∨ (Rect.block (s := S64x512x512) S8x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x512.size a ≤ S64x512x512.size a
  hwx0_1 : ∀ i : grid0.Coords, EltTy.bits .f32 = 32 ∨ (Rect.block (s := S64x512x512) S8x32x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x128.size a ≤ S64x512x512.size a
  hwx1_0 : ∀ i : grid1.Coords, EltTy.bits .f32 = 32 ∨ (Rect.block (s := S64x512x512) S8x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x128.size a ≤ S64x512x512.size a
  hwx1_1 : ∀ i : grid1.Coords, EltTy.bits .f32 = 32 ∨ (Rect.block (s := S64x512x512) S8x512x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x8x512.size a ≤ S64x512x512.size a
  hwx2_0 : ∀ i : grid2.Coords, EltTy.bits .f32 = 32 ∨ (Rect.block (s := S64x512x512) S64x8x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x8x512.size a ≤ S64x512x512.size a
  hwx2_1 : ∀ i : grid2.Coords, EltTy.bits .f32 = 32 ∨ (Rect.block (s := S64x512x512) S64x8x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x8x512.size a ≤ S64x512x512.size a
  hwx2_2 : ∀ i : grid2.Coords, EltTy.bits .f32 = 32 ∨ (Rect.block (s := S64x512x512) S64x8x512.size (cc2_transform_2 i) (hinb2_2 i)).WholeWords (EltTy.packing .f32)

variable [Facts₀]

abbrev win0_0 : Pipeline.Window sig grid0 :=
  Pipeline.Window.ofSpec (Memref.whole main_v0) S8x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S8x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8x512x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S64x8x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S64x8x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S64x8x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S1x1x64x512x512 : Shape := ⟨5, ![1, 1, 64, 512, 512]⟩
abbrev S_ : Shape := ⟨0, ![]⟩
abbrev S64x512x512 : Shape := ⟨3, ![64, 512, 512]⟩

abbrev nBuf : Space → Nat
  | .hbm => 19
  | .vmem => 0
  | .smem => 0
  | _ => 0

abbrev bufTy : (tb : Table) → Fin (tcTables nBuf tb) → BufTy
  | .hbm, ⟨0, _⟩ => ⟨S1x1x64x512x512, .f32⟩
  | .hbm, ⟨1, _⟩ => ⟨S_, .f32⟩
  | .hbm, ⟨2, _⟩ => ⟨S1x1x64x512x512, .f32⟩
  | .hbm, ⟨3, _⟩ => ⟨S1x1x64x512x512, .i1⟩
  | .hbm, ⟨4, _⟩ => ⟨S_, .f32⟩
  | .hbm, ⟨5, _⟩ => ⟨S1x1x64x512x512, .f32⟩
  | .hbm, ⟨6, _⟩ => ⟨S1x1x64x512x512, .f32⟩
  | .hbm, ⟨7, _⟩ => ⟨S_, .f32⟩
  | .hbm, ⟨8, _⟩ => ⟨S_, .f32⟩
  | .hbm, ⟨9, _⟩ => ⟨S1x1x64x512x512, .f32⟩
  | .hbm, ⟨10, _⟩ => ⟨S_, .f32⟩
  | .hbm, ⟨11, _⟩ => ⟨S1x1x64x512x512, .f32⟩
  | .hbm, ⟨12, _⟩ => ⟨S1x1x64x512x512, .i1⟩
  | .hbm, ⟨13, _⟩ => ⟨S1x1x64x512x512, .i1⟩
  | .hbm, ⟨14, _⟩ => ⟨S1x1x64x512x512, .i1⟩
  | .hbm, ⟨15, _⟩ => ⟨S_, .f32⟩
  | .hbm, ⟨16, _⟩ => ⟨S1x1x64x512x512, .f32⟩
  | .hbm, ⟨17, _⟩ => ⟨S1x1x64x512x512, .f32⟩
  | .hbm, ⟨18, _⟩ => ⟨S64x512x512, .f32⟩
  | _, _ => ⟨S1x1x64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_call0_v0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S_S1x1x64x512x512 : S_.BroadcastsInDim S1x1x64x512x512 (![] : Fin 0 → Fin S1x1x64x512x512.rank)
  bcast_S_S_ : S_.BroadcastsInDim S_ (![] : Fin 0 → Fin S_.rank)
  reduceWindows_S1x1x64x512x512_S1x1x64x512x512_w1s1p0_0_w1s1p0_0_w9s1p4_4_w9s1p4_4_w9s1p4_4 : S1x1x64x512x512.ReduceWindows (![1, 1, 9, 9, 9] : Fin 5 → Nat) ![1, 1, 1, 1, 1] ![0, 0, 4, 4, 4] ![0, 0, 4, 4, 4] S1x1x64x512x512
  h_S_ : 0 < S_.numel
  shapeCasts_S1x1x64x512x512_S64x512x512 : S1x1x64x512x512.ShapeCasts S64x512x512

variable [Facts₀]

class Facts : Prop extends Facts₀ where

variable [Facts]
-- ==== Proof.Spec.lean ====
/-
  The specification: thresholded local maxima of a volume.

  A volume `x` of extended reals over 64 × 512 × 512 (carried with two leading unit axes) is first
  thresholded, `t = x` where `x > 1/2` and `0` elsewhere.  The 9 × 9 × 9 box maximum of `t` around a
  voxel, positions outside the volume counting as `-∞`, is taken one axis at a time: along the last
  axis, then the middle one, then the leading one, each time the maximum of the nine entries within
  distance four on a line.  A voxel is kept (at the box maximum) when the box maximum is positive and
  equal to `t` there, and set to zero otherwise.

  A nine-entry sliding maximum is characterised by what it is bounded by: `slide9 f i ≤ z` exactly when
  every entry within distance four of `i` is `≤ z`.  Three nested sliding maxima are therefore bounded by
  `z` exactly when every entry of the box is, which is how the box maximum meets any other way of
  folding `max` over the same box.
-/
import Idealize.ShloMosaic.PureOps.Ideal
import Idealize.ShloMosaic.PureOps.Ideal.Laws
import Idealize.ShloMosaic.Lib.ValueIdx

noncomputable section

namespace Cert.Peaks

open Idealize.ShloMosaic Idealize.ShloMosaic.ValueIdx

/-- The f32 word of minus infinity denotes the least extended real. -/
theorem negInf_eq_bot : Ideal.ofBits .f32 0xFF800000#32 = (⊥ : EReal) := by
  simp [Ideal.ofBits, Ideal.ieee]

/-! ## A sliding maximum along a line -/

/-- The entry `d` places ahead of `i` on a line of `n` entries, `-∞` past the end of the line. -/
def ahead (n d : ℕ) (f : Fin n → EReal) (i : Fin n) : EReal :=
  if h : i.val + d < n then f ⟨i.val + d, h⟩ else ⊥

/-- The entry `d` places behind `i`, `-∞` before the start of the line. -/
def behind (n d : ℕ) (f : Fin n → EReal) (i : Fin n) : EReal :=
  if _h : d ≤ i.val then f ⟨i.val - d, lt_of_le_of_lt (Nat.sub_le _ _) i.isLt⟩ else ⊥

/-- The maximum of the nine entries within distance four of `i`, taken in the order
    `i, i+1, i-1, i+2, i-2, i+3, i-3, i+4, i-4`. -/
def slide9 (n : ℕ) (f : Fin n → EReal) (i : Fin n) : EReal :=
  max (max (max (max (max (max (max (max (f i) (ahead n 1 f i)) (behind n 1 f i)) (ahead n 2 f i)) (behind n 2 f i))
    (ahead n 3 f i)) (behind n 3 f i)) (ahead n 4 f i)) (behind n 4 f i)

theorem ahead_le_iff (n d : ℕ) (f : Fin n → EReal) (i : Fin n) (z : EReal) :
    ahead n d f i ≤ z ↔ ∀ h : i.val + d < n, f ⟨i.val + d, h⟩ ≤ z := by
  unfold ahead
  split
  · next h => exact ⟨fun hz _ => hz, fun hz => hz h⟩
  · next h => exact ⟨fun _ h' => absurd h' h, fun _ => bot_le⟩

theorem behind_le_iff (n d : ℕ) (f : Fin n → EReal) (i : Fin n) (z : EReal) :
    behind n d f i ≤ z ↔ ∀ _h : d ≤ i.val, f ⟨i.val - d, lt_of_le_of_lt (Nat.sub_le _ _) i.isLt⟩ ≤ z := by
  unfold behind
  split
  · next h => exact ⟨fun hz _ => hz, fun hz => hz h⟩
  · next h => exact ⟨fun _ h' => absurd h' h, fun _ => bot_le⟩

/-- An entry `d` ahead, reached from a bound on all nine. -/
theorem le_of_ahead {n : ℕ} {f : Fin n → EReal} {i : Fin n} {z : EReal} (d : ℕ)
    (H : ∀ h : i.val + d < n, f ⟨i.val + d, h⟩ ≤ z) (k : Fin n) (e : k.val = i.val + d) : f k ≤ z := by
  have hk : i.val + d < n := e ▸ k.isLt
  have : k = ⟨i.val + d, hk⟩ := Fin.ext e
  rw [this]; exact H hk

/-- An entry `d` behind, reached from a bound on all nine. -/
theorem le_of_behind {n : ℕ} {f : Fin n → EReal} {i : Fin n} {z : EReal} (d : ℕ)
    (H : ∀ _h : d ≤ i.val, f ⟨i.val - d, lt_of_le_of_lt (Nat.sub_le _ _) i.isLt⟩ ≤ z) (k : Fin n)
    (e : i.val = k.val + d) : f k ≤ z := by
  have hd : d ≤ i.val := by omega
  have : k = ⟨i.val - d, lt_of_le_of_lt (Nat.sub_le _ _) i.isLt⟩ := Fin.ext (by show k.val = i.val - d; omega)
  rw [this]; exact H hd

/-- The sliding maximum is bounded by `z` exactly when each entry within distance four is. -/
theorem slide9_le_iff {n : ℕ} (f : Fin n → EReal) (i : Fin n) (z : EReal) :
    slide9 n f i ≤ z ↔ ∀ k : Fin n, k.val ≤ i.val + 4 → i.val ≤ k.val + 4 → f k ≤ z := by
  unfold slide9
  simp only [max_le_iff, ahead_le_iff, behind_le_iff]
  constructor
  · rintro ⟨⟨⟨⟨⟨⟨⟨⟨h0, a1⟩, b1⟩, a2⟩, b2⟩, a3⟩, b3⟩, a4⟩, b4⟩ k hk1 hk2
    rcases (by omega : k.val = i.val ∨ k.val = i.val + 1 ∨ i.val = k.val + 1 ∨ k.val = i.val + 2 ∨ i.val = k.val + 2
        ∨ k.val = i.val + 3 ∨ i.val = k.val + 3 ∨ k.val = i.val + 4 ∨ i.val = k.val + 4) with
      e | e | e | e | e | e | e | e | e
    · have : k = i := Fin.ext e
      rw [this]; exact h0
    · exact le_of_ahead 1 a1 k e
    · exact le_of_behind 1 b1 k e
    · exact le_of_ahead 2 a2 k e
    · exact le_of_behind 2 b2 k e
    · exact le_of_ahead 3 a3 k e
    · exact le_of_behind 3 b3 k e
    · exact le_of_ahead 4 a4 k e
    · exact le_of_behind 4 b4 k e
  · intro H
    refine ⟨⟨⟨⟨⟨⟨⟨⟨H i (by omega) (by omega), fun h => H _ ?_ ?_⟩, fun h => H _ ?_ ?_⟩, fun h => H _ ?_ ?_⟩,
      fun h => H _ ?_ ?_⟩, fun h => H _ ?_ ?_⟩, fun h => H _ ?_ ?_⟩, fun h => H _ ?_ ?_⟩, fun h => H _ ?_ ?_⟩
    all_goals (dsimp only; omega)

/-- Three nested sliding maxima, one per axis, are bounded by `z` exactly when every entry of the
    9 × 9 × 9 box around `(d, h, w)` that lies inside the volume is. -/
theorem box_le_iff {a b c : ℕ} (T : Fin a → Fin b → Fin c → EReal) (d : Fin a) (h : Fin b) (w : Fin c) (z : EReal) :
    slide9 a (fun d' => slide9 b (fun h' => slide9 c (fun w' => T d' h' w') w) h) d ≤ z ↔
      ∀ (d' : Fin a) (h' : Fin b) (w' : Fin c), d'.val ≤ d.val + 4 → d.val ≤ d'.val + 4 → h'.val ≤ h.val + 4 →
        h.val ≤ h'.val + 4 → w'.val ≤ w.val + 4 → w.val ≤ w'.val + 4 → T d' h' w' ≤ z := by
  simp only [slide9_le_iff]
  constructor
  · intro H d' h' w' h1 h2 h3 h4 h5 h6
    exact H d' h1 h2 h' h3 h4 w' h5 h6
  · intro H d' h1 h2 h' h3 h4 w' h5 h6
    exact H d' h' w' h1 h2 h3 h4 h5 h6

/-! ## The threshold, the peak test, and the three passes -/

/-- `x` where `x > 1/2`, zero elsewhere. -/
def keepAbove (x : EReal) : EReal :=
  Scalar.select (FloatOps.cmpf (F := Ideal) (φ := .f32) .ogt x (Ideal.ofBits .f32 0x3F000000#32)) x
    (Ideal.ofBits .f32 0x00000000#32)

/-- The box maximum `p` where it is positive and equal to the thresholded value `t`, zero elsewhere. -/
def peak (p t : EReal) : EReal :=
  Scalar.select (IntOp.andi (FloatOps.cmpf (F := Ideal) (φ := .f32) .ogt p (Ideal.ofBits .f32 0x00000000#32))
    (FloatOps.cmpf (F := Ideal) (φ := .f32) .oeq p t)) p (Ideal.ofBits .f32 0x00000000#32)

/-- The volume, and the argument with its two leading unit axes. -/
abbrev Vol : Shape := ⟨3, ![64, 512, 512]⟩
abbrev Arg : Shape := ⟨5, ![1, 1, 64, 512, 512]⟩

/-- The argument read as a volume. -/
def flat (x : Arg.Idx → EReal) : Vol.Idx → EReal := fun i => x (ix5 0 0 (i 0) (i 1) (i 2))

/-- Threshold, then the sliding maximum along the last axis. -/
def alongW (X : Vol.Idx → EReal) : Vol.Idx → EReal :=
  fun i => slide9 512 (fun w => keepAbove (X (ix3 (i 0) (i 1) w))) (i 2)

/-- The sliding maximum along the middle axis. -/
def alongH (X : Vol.Idx → EReal) : Vol.Idx → EReal :=
  fun i => slide9 512 (fun h => X (ix3 (i 0) h (i 2))) (i 1)

/-- The sliding maximum along the leading axis, then the peak test against the thresholded `Y`. -/
def alongD (X Y : Vol.Idx → EReal) : Vol.Idx → EReal :=
  fun i => peak (slide9 64 (fun d => X (ix3 d (i 1) (i 2))) (i 0)) (keepAbove (Y i))

/-- The thresholded local maxima of `x`. -/
def peaks (x : Arg.Idx → EReal) : Vol.Idx → EReal := alongD (alongH (alongW (flat x))) (flat x)

/-- The thresholded box maximum around `(d, h, w)`. -/
def boxMax (x : Arg.Idx → EReal) (d : Fin 64) (h : Fin 512) (w : Fin 512) : EReal :=
  slide9 64 (fun d' => slide9 512 (fun h' => slide9 512 (fun w' => keepAbove (x (ix5 0 0 d' h' w'))) w) h) d

theorem peaks_apply (x : Arg.Idx → EReal) (d : Fin 64) (h : Fin 512) (w : Fin 512) :
    peaks x (ix3 d h w) = peak (boxMax x d h w) (keepAbove (x (ix5 0 0 d h w))) := rfl

end Cert.Peaks

end
-- ==== Proof.LibShiftFill.lean ====
/-
  A rank-3 array shifted along one axis and filled with a constant: the unit-stride slice that drops
  the first `d` entries of the axis joined with `d` entries of a constant behind it (the entry `d`
  places AHEAD, the constant past the end), or `d` entries of the constant joined with the slice that
  drops the last `d` entries (the entry `d` places BEHIND, the constant before the start) — each read
  at an index given by its three coordinates.  One pair of lemmas per axis, for any extents.
-/
import Idealize.ShloMosaic.Lib.Pipeline.Value
import Idealize.ShloMosaic.Lib.ValueIdx

noncomputable section

namespace Cert.ShiftFill

open Idealize.ShloMosaic Idealize.ShloMosaic.ValueIdx

variable {α : Type}

/-! ## Along the last axis -/

/-- Entry `r + d` along the last axis, or the fill `v` when that is past the end. -/
theorem ahead_axis2 {A B C C' d : ℕ} (x : (⟨3, ![A, B, C]⟩ : Shape).Idx → α) (v : α)
    (hs : (⟨3, ![A, B, C]⟩ : Shape).Slices ![0, 0, d] ⟨3, ![A, B, C']⟩)
    (hc : Shape.Concatenates [(⟨3, ![A, B, C']⟩ : Shape), ⟨3, ![A, B, d]⟩] ⟨3, ![A, B, C]⟩ 2)
    (hC : C' + d = C) (p : Fin A) (q : Fin B) (r : Fin C) :
    concatenate ⟨3, ![A, B, C]⟩ 2 [⟨⟨3, ![A, B, C']⟩, extractStridedSlice ⟨3, ![A, B, C']⟩ ![0, 0, d] x hs⟩,
        ⟨⟨3, ![A, B, d]⟩, broadcast ⟨3, ![A, B, d]⟩ v⟩] hc (ix3 p q r)
      = if h : r.val + d < C then x (ix3 p q ⟨r.val + d, h⟩) else v := by
  have hr := r.isLt
  by_cases h : r.val + d < C
  · rw [dif_pos h]
    refine (concatenate_pair_apply_left _ _ _ hc (ix3 p q r) rfl (ix3 p q ⟨r.val, by omega⟩) ?_).trans ?_
    · intro b
      match b with
      | ⟨0, _⟩ => rfl
      | ⟨1, _⟩ => rfl
      | ⟨2, _⟩ => rfl
    · refine extractStridedSlice_apply _ x hs _ (ix3 p q ⟨r.val + d, h⟩) fun a => ?_
      match a with
      | ⟨0, _⟩ => show p.val = 0 + p.val; omega
      | ⟨1, _⟩ => show q.val = 0 + q.val; omega
      | ⟨2, _⟩ => show r.val + d = d + r.val; omega
  · rw [dif_neg h]
    refine (concatenate_pair_apply_right _ _ _ hc (ix3 p q r) rfl rfl (ix3 p q ⟨r.val - C', by omega⟩) ?_ ?_).trans rfl
    · intro b hb
      match b, hb with
      | ⟨0, _⟩, _ => rfl
      | ⟨1, _⟩, _ => rfl
      | ⟨2, _⟩, hb => exact absurd rfl hb
    · show (r.val - C') + C' = r.val
      omega

/-- Entry `r - d` along the last axis, or the fill `v` when that is before the start. -/
theorem behind_axis2 {A B C C' d : ℕ} (x : (⟨3, ![A, B, C]⟩ : Shape).Idx → α) (v : α)
    (hs : (⟨3, ![A, B, C]⟩ : Shape).Slices ![0, 0, 0] ⟨3, ![A, B, C']⟩)
    (hc : Shape.Concatenates [(⟨3, ![A, B, d]⟩ : Shape), ⟨3, ![A, B, C']⟩] ⟨3, ![A, B, C]⟩ 2)
    (hC : C' + d = C) (p : Fin A) (q : Fin B) (r : Fin C) :
    concatenate ⟨3, ![A, B, C]⟩ 2 [⟨⟨3, ![A, B, d]⟩, broadcast ⟨3, ![A, B, d]⟩ v⟩,
        ⟨⟨3, ![A, B, C']⟩, extractStridedSlice ⟨3, ![A, B, C']⟩ ![0, 0, 0] x hs⟩] hc (ix3 p q r)
      = if _h : d ≤ r.val then x (ix3 p q ⟨r.val - d, lt_of_le_of_lt (Nat.sub_le _ _) r.isLt⟩) else v := by
  have hr := r.isLt
  by_cases h : d ≤ r.val
  · rw [dif_pos h]
    refine (concatenate_pair_apply_right _ _ _ hc (ix3 p q r) rfl rfl (ix3 p q ⟨r.val - d, by omega⟩) ?_ ?_).trans ?_
    · intro b hb
      match b, hb with
      | ⟨0, _⟩, _ => rfl
      | ⟨1, _⟩, _ => rfl
      | ⟨2, _⟩, hb => exact absurd rfl hb
    · show (r.val - d) + d = r.val
      omega
    · refine extractStridedSlice_apply _ x hs _ (ix3 p q ⟨r.val - d, lt_of_le_of_lt (Nat.sub_le _ _) r.isLt⟩) fun a => ?_
      match a with
      | ⟨0, _⟩ => show p.val = 0 + p.val; omega
      | ⟨1, _⟩ => show q.val = 0 + q.val; omega
      | ⟨2, _⟩ => show r.val - d = 0 + (r.val - d); omega
  · rw [dif_neg h]
    refine (concatenate_pair_apply_left _ _ _ hc (ix3 p q r) rfl (ix3 p q ⟨r.val, by omega⟩) ?_).trans rfl
    intro b
    match b with
    | ⟨0, _⟩ => rfl
    | ⟨1, _⟩ => rfl
    | ⟨2, _⟩ => rfl

/-! ## Along the middle axis -/

/-- Entry `q + d` along the middle axis, or the fill `v` when that is past the end. -/
theorem ahead_axis1 {A B B' C d : ℕ} (x : (⟨3, ![A, B, C]⟩ : Shape).Idx → α) (v : α)
    (hs : (⟨3, ![A, B, C]⟩ : Shape).Slices ![0, d, 0] ⟨3, ![A, B', C]⟩)
    (hc : Shape.Concatenates [(⟨3, ![A, B', C]⟩ : Shape), ⟨3, ![A, d, C]⟩] ⟨3, ![A, B, C]⟩ 1)
    (hB : B' + d = B) (p : Fin A) (q : Fin B) (r : Fin C) :
    concatenate ⟨3, ![A, B, C]⟩ 1 [⟨⟨3, ![A, B', C]⟩, extractStridedSlice ⟨3, ![A, B', C]⟩ ![0, d, 0] x hs⟩,
        ⟨⟨3, ![A, d, C]⟩, broadcast ⟨3, ![A, d, C]⟩ v⟩] hc (ix3 p q r)
      = if h : q.val + d < B then x (ix3 p ⟨q.val + d, h⟩ r) else v := by
  have hq := q.isLt
  by_cases h : q.val + d < B
  · rw [dif_pos h]
    refine (concatenate_pair_apply_left _ _ _ hc (ix3 p q r) rfl (ix3 p ⟨q.val, by omega⟩ r) ?_).trans ?_
    · intro b
      match b with
      | ⟨0, _⟩ => rfl
      | ⟨1, _⟩ => rfl
      | ⟨2, _⟩ => rfl
    · refine extractStridedSlice_apply _ x hs _ (ix3 p ⟨q.val + d, h⟩ r) fun a => ?_
      match a with
      | ⟨0, _⟩ => show p.val = 0 + p.val; omega
      | ⟨1, _⟩ => show q.val + d = d + q.val; omega
      | ⟨2, _⟩ => show r.val = 0 + r.val; omega
  · rw [dif_neg h]
    refine (concatenate_pair_apply_right _ _ _ hc (ix3 p q r) rfl rfl (ix3 p ⟨q.val - B', by omega⟩ r) ?_ ?_).trans rfl
    · intro b hb
      match b, hb with
      | ⟨0, _⟩, _ => rfl
      | ⟨1, _⟩, hb => exact absurd rfl hb
      | ⟨2, _⟩, _ => rfl
    · show (q.val - B') + B' = q.val
      omega

/-- Entry `q - d` along the middle axis, or the fill `v` when that is before the start. -/
theorem behind_axis1 {A B B' C d : ℕ} (x : (⟨3, ![A, B, C]⟩ : Shape).Idx → α) (v : α)
    (hs : (⟨3, ![A, B, C]⟩ : Shape).Slices ![0, 0, 0] ⟨3, ![A, B', C]⟩)
    (hc : Shape.Concatenates [(⟨3, ![A, d, C]⟩ : Shape), ⟨3, ![A, B', C]⟩] ⟨3, ![A, B, C]⟩ 1)
    (hB : B' + d = B) (p : Fin A) (q : Fin B) (r : Fin C) :
    concatenate ⟨3, ![A, B, C]⟩ 1 [⟨⟨3, ![A, d, C]⟩, broadcast ⟨3, ![A, d, C]⟩ v⟩,
        ⟨⟨3, ![A, B', C]⟩, extractStridedSlice ⟨3, ![A, B', C]⟩ ![0, 0, 0] x hs⟩] hc (ix3 p q r)
      = if _h : d ≤ q.val then x (ix3 p ⟨q.val - d, lt_of_le_of_lt (Nat.sub_le _ _) q.isLt⟩ r) else v := by
  have hq := q.isLt
  by_cases h : d ≤ q.val
  · rw [dif_pos h]
    refine (concatenate_pair_apply_right _ _ _ hc (ix3 p q r) rfl rfl (ix3 p ⟨q.val - d, by omega⟩ r) ?_ ?_).trans ?_
    · intro b hb
      match b, hb with
      | ⟨0, _⟩, _ => rfl
      | ⟨1, _⟩, hb => exact absurd rfl hb
      | ⟨2, _⟩, _ => rfl
    · show (q.val - d) + d = q.val
      omega
    · refine extractStridedSlice_apply _ x hs _ (ix3 p ⟨q.val - d, lt_of_le_of_lt (Nat.sub_le _ _) q.isLt⟩ r) fun a => ?_
      match a with
      | ⟨0, _⟩ => show p.val = 0 + p.val; omega
      | ⟨1, _⟩ => show q.val - d = 0 + (q.val - d); omega
      | ⟨2, _⟩ => show r.val = 0 + r.val; omega
  · rw [dif_neg h]
    refine (concatenate_pair_apply_left _ _ _ hc (ix3 p q r) rfl (ix3 p ⟨q.val, by omega⟩ r) ?_).trans rfl
    intro b
    match b with
    | ⟨0, _⟩ => rfl
    | ⟨1, _⟩ => rfl
    | ⟨2, _⟩ => rfl

/-! ## Along the leading axis -/

/-- Entry `p + d` along the leading axis, or the fill `v` when that is past the end. -/
theorem ahead_axis0 {A A' B C d : ℕ} (x : (⟨3, ![A, B, C]⟩ : Shape).Idx → α) (v : α)
    (hs : (⟨3, ![A, B, C]⟩ : Shape).Slices ![d, 0, 0] ⟨3, ![A', B, C]⟩)
    (hc : Shape.Concatenates [(⟨3, ![A', B, C]⟩ : Shape), ⟨3, ![d, B, C]⟩] ⟨3, ![A, B, C]⟩ 0)
    (hA : A' + d = A) (p : Fin A) (q : Fin B) (r : Fin C) :
    concatenate ⟨3, ![A, B, C]⟩ 0 [⟨⟨3, ![A', B, C]⟩, extractStridedSlice ⟨3, ![A', B, C]⟩ ![d, 0, 0] x hs⟩,
        ⟨⟨3, ![d, B, C]⟩, broadcast ⟨3, ![d, B, C]⟩ v⟩] hc (ix3 p q r)
      = if h : p.val + d < A then x (ix3 ⟨p.val + d, h⟩ q r) else v := by
  have hp := p.isLt
  by_cases h : p.val + d < A
  · rw [dif_pos h]
    refine (concatenate_pair_apply_left _ _ _ hc (ix3 p q r) rfl (ix3 ⟨p.val, by omega⟩ q r) ?_).trans ?_
    · intro b
      match b with
      | ⟨0, _⟩ => rfl
      | ⟨1, _⟩ => rfl
      | ⟨2, _⟩ => rfl
    · refine extractStridedSlice_apply _ x hs _ (ix3 ⟨p.val + d, h⟩ q r) fun a => ?_
      match a with
      | ⟨0, _⟩ => show p.val + d = d + p.val; omega
      | ⟨1, _⟩ => show q.val = 0 + q.val; omega
      | ⟨2, _⟩ => show r.val = 0 + r.val; omega
  · rw [dif_neg h]
    refine (concatenate_pair_apply_right _ _ _ hc (ix3 p q r) rfl rfl (ix3 ⟨p.val - A', by omega⟩ q r) ?_ ?_).trans rfl
    · intro b hb
      match b, hb with
      | ⟨0, _⟩, hb => exact absurd rfl hb
      | ⟨1, _⟩, _ => rfl
      | ⟨2, _⟩, _ => rfl
    · show (p.val - A') + A' = p.val
      omega

/-- Entry `p - d` along the leading axis, or the fill `v` when that is before the start. -/
theorem behind_axis0 {A A' B C d : ℕ} (x : (⟨3, ![A, B, C]⟩ : Shape).Idx → α) (v : α)
    (hs : (⟨3, ![A, B, C]⟩ : Shape).Slices ![0, 0, 0] ⟨3, ![A', B, C]⟩)
    (hc : Shape.Concatenates [(⟨3, ![d, B, C]⟩ : Shape), ⟨3, ![A', B, C]⟩] ⟨3, ![A, B, C]⟩ 0)
    (hA : A' + d = A) (p : Fin A) (q : Fin B) (r : Fin C) :
    concatenate ⟨3, ![A, B, C]⟩ 0 [⟨⟨3, ![d, B, C]⟩, broadcast ⟨3, ![d, B, C]⟩ v⟩,
        ⟨⟨3, ![A', B, C]⟩, extractStridedSlice ⟨3, ![A', B, C]⟩ ![0, 0, 0] x hs⟩] hc (ix3 p q r)
      = if _h : d ≤ p.val then x (ix3 ⟨p.val - d, lt_of_le_of_lt (Nat.sub_le _ _) p.isLt⟩ q r) else v := by
  have hp := p.isLt
  by_cases h : d ≤ p.val
  · rw [dif_pos h]
    refine (concatenate_pair_apply_right _ _ _ hc (ix3 p q r) rfl rfl (ix3 ⟨p.val - d, by omega⟩ q r) ?_ ?_).trans ?_
    · intro b hb
      match b, hb with
      | ⟨0, _⟩, hb => exact absurd rfl hb
      | ⟨1, _⟩, _ => rfl
      | ⟨2, _⟩, _ => rfl
    · show (p.val - d) + d = p.val
      omega
    · refine extractStridedSlice_apply _ x hs _ (ix3 ⟨p.val - d, lt_of_le_of_lt (Nat.sub_le _ _) p.isLt⟩ q r) fun a => ?_
      match a with
      | ⟨0, _⟩ => show p.val - d = 0 + (p.val - d); omega
      | ⟨1, _⟩ => show q.val = 0 + q.val; omega
      | ⟨2, _⟩ => show r.val = 0 + r.val; omega
  · rw [dif_neg h]
    refine (concatenate_pair_apply_left _ _ _ hc (ix3 p q r) rfl (ix3 ⟨p.val, by omega⟩ q r) ?_).trans rfl
    intro b
    match b with
    | ⟨0, _⟩ => rfl
    | ⟨1, _⟩ => rfl
    | ⟨2, _⟩ => rfl

end Cert.ShiftFill

end
-- ==== Proof.Payload.lean ====
/-
  What each of the three kernel bodies stores, read at one entry of its block.

  A body loads a whole block, builds for d = 1 … 4 the block shifted d places ahead and d places behind
  along one axis (a slice joined with d entries of -∞) and takes the running maximum of the nine
  arrays.  At the entry (p, q, r) that is the nine-entry sliding maximum along the axis through that
  entry: the first body slides along the last axis of the thresholded block, the second along the middle
  axis, the third along the leading axis and then applies the peak test against the second block,
  thresholded.
-/
import proofs.«138318_j82523501625529_2_alg».proof.Proof.Gen.KernelIdeal.Skeleton
import proofs.«138318_j82523501625529_2_alg».proof.Proof.Spec
import proofs.«138318_j82523501625529_2_alg».proof.Proof.LibShiftFill
import Idealize.ShloMosaic.Lib.Pipeline.Value
import Idealize.ShloMosaic.Lib.ValueIdx

noncomputable section

namespace Cert.Peaks.Body

open Idealize.ShloMosaic Idealize.ShloMosaic.ValueIdx Cert.KernelIdeal Cert.KernelIdeal.Gen Cert.Peaks Cert.ShiftFill

/-! ## The shifted arrays, with -∞ as the fill, as entries of a line -/

theorem ahead2 {A B C C' d : ℕ} (V : (⟨3, ![A, B, C]⟩ : Shape).Idx → EReal)
    (hs : (⟨3, ![A, B, C]⟩ : Shape).Slices ![0, 0, d] ⟨3, ![A, B, C']⟩)
    (hc : Shape.Concatenates [(⟨3, ![A, B, C']⟩ : Shape), ⟨3, ![A, B, d]⟩] ⟨3, ![A, B, C]⟩ 2)
    (hC : C' + d = C) (p : Fin A) (q : Fin B) (r : Fin C) :
    concatenate ⟨3, ![A, B, C]⟩ 2 [⟨⟨3, ![A, B, C']⟩, extractStridedSlice ⟨3, ![A, B, C']⟩ ![0, 0, d] V hs⟩,
        ⟨⟨3, ![A, B, d]⟩, broadcast ⟨3, ![A, B, d]⟩ (Scalar.ofBits (F := Ideal) .f32 0xFF800000#32)⟩] hc (ix3 p q r)
      = ahead C d (fun k => V (ix3 p q k)) r :=
  (ahead_axis2 V _ hs hc hC p q r).trans (dite_congr rfl (fun _ => rfl) (fun _ => negInf_eq_bot))

theorem behind2 {A B C C' d : ℕ} (V : (⟨3, ![A, B, C]⟩ : Shape).Idx → EReal)
    (hs : (⟨3, ![A, B, C]⟩ : Shape).Slices ![0, 0, 0] ⟨3, ![A, B, C']⟩)
    (hc : Shape.Concatenates [(⟨3, ![A, B, d]⟩ : Shape), ⟨3, ![A, B, C']⟩] ⟨3, ![A, B, C]⟩ 2)
    (hC : C' + d = C) (p : Fin A) (q : Fin B) (r : Fin C) :
    concatenate ⟨3, ![A, B, C]⟩ 2 [⟨⟨3, ![A, B, d]⟩, broadcast ⟨3, ![A, B, d]⟩ (Scalar.ofBits (F := Ideal) .f32 0xFF800000#32)⟩,
        ⟨⟨3, ![A, B, C']⟩, extractStridedSlice ⟨3, ![A, B, C']⟩ ![0, 0, 0] V hs⟩] hc (ix3 p q r)
      = behind C d (fun k => V (ix3 p q k)) r :=
  (behind_axis2 V _ hs hc hC p q r).trans (dite_congr rfl (fun _ => rfl) (fun _ => negInf_eq_bot))

theorem ahead1 {A B B' C d : ℕ} (V : (⟨3, ![A, B, C]⟩ : Shape).Idx → EReal)
    (hs : (⟨3, ![A, B, C]⟩ : Shape).Slices ![0, d, 0] ⟨3, ![A, B', C]⟩)
    (hc : Shape.Concatenates [(⟨3, ![A, B', C]⟩ : Shape), ⟨3, ![A, d, C]⟩] ⟨3, ![A, B, C]⟩ 1)
    (hB : B' + d = B) (p : Fin A) (q : Fin B) (r : Fin C) :
    concatenate ⟨3, ![A, B, C]⟩ 1 [⟨⟨3, ![A, B', C]⟩, extractStridedSlice ⟨3, ![A, B', C]⟩ ![0, d, 0] V hs⟩,
        ⟨⟨3, ![A, d, C]⟩, broadcast ⟨3, ![A, d, C]⟩ (Scalar.ofBits (F := Ideal) .f32 0xFF800000#32)⟩] hc (ix3 p q r)
      = ahead B d (fun k => V (ix3 p k r)) q :=
  (ahead_axis1 V _ hs hc hB p q r).trans (dite_congr rfl (fun _ => rfl) (fun _ => negInf_eq_bot))

theorem behind1 {A B B' C d : ℕ} (V : (⟨3, ![A, B, C]⟩ : Shape).Idx → EReal)
    (hs : (⟨3, ![A, B, C]⟩ : Shape).Slices ![0, 0, 0] ⟨3, ![A, B', C]⟩)
    (hc : Shape.Concatenates [(⟨3, ![A, d, C]⟩ : Shape), ⟨3, ![A, B', C]⟩] ⟨3, ![A, B, C]⟩ 1)
    (hB : B' + d = B) (p : Fin A) (q : Fin B) (r : Fin C) :
    concatenate ⟨3, ![A, B, C]⟩ 1 [⟨⟨3, ![A, d, C]⟩, broadcast ⟨3, ![A, d, C]⟩ (Scalar.ofBits (F := Ideal) .f32 0xFF800000#32)⟩,
        ⟨⟨3, ![A, B', C]⟩, extractStridedSlice ⟨3, ![A, B', C]⟩ ![0, 0, 0] V hs⟩] hc (ix3 p q r)
      = behind B d (fun k => V (ix3 p k r)) q :=
  (behind_axis1 V _ hs hc hB p q r).trans (dite_congr rfl (fun _ => rfl) (fun _ => negInf_eq_bot))

theorem ahead0 {A A' B C d : ℕ} (V : (⟨3, ![A, B, C]⟩ : Shape).Idx → EReal)
    (hs : (⟨3, ![A, B, C]⟩ : Shape).Slices ![d, 0, 0] ⟨3, ![A', B, C]⟩)
    (hc : Shape.Concatenates [(⟨3, ![A', B, C]⟩ : Shape), ⟨3, ![d, B, C]⟩] ⟨3, ![A, B, C]⟩ 0)
    (hA : A' + d = A) (p : Fin A) (q : Fin B) (r : Fin C) :
    concatenate ⟨3, ![A, B, C]⟩ 0 [⟨⟨3, ![A', B, C]⟩, extractStridedSlice ⟨3, ![A', B, C]⟩ ![d, 0, 0] V hs⟩,
        ⟨⟨3, ![d, B, C]⟩, broadcast ⟨3, ![d, B, C]⟩ (Scalar.ofBits (F := Ideal) .f32 0xFF800000#32)⟩] hc (ix3 p q r)
      = ahead A d (fun k => V (ix3 k q r)) p :=
  (ahead_axis0 V _ hs hc hA p q r).trans (dite_congr rfl (fun _ => rfl) (fun _ => negInf_eq_bot))

theorem behind0 {A A' B C d : ℕ} (V : (⟨3, ![A, B, C]⟩ : Shape).Idx → EReal)
    (hs : (⟨3, ![A, B, C]⟩ : Shape).Slices ![0, 0, 0] ⟨3, ![A', B, C]⟩)
    (hc : Shape.Concatenates [(⟨3, ![d, B, C]⟩ : Shape), ⟨3, ![A', B, C]⟩] ⟨3, ![A, B, C]⟩ 0)
    (hA : A' + d = A) (p : Fin A) (q : Fin B) (r : Fin C) :
    concatenate ⟨3, ![A, B, C]⟩ 0 [⟨⟨3, ![d, B, C]⟩, broadcast ⟨3, ![d, B, C]⟩ (Scalar.ofBits (F := Ideal) .f32 0xFF800000#32)⟩,
        ⟨⟨3, ![A', B, C]⟩, extractStridedSlice ⟨3, ![A', B, C]⟩ ![0, 0, 0] V hs⟩] hc (ix3 p q r)
      = behind A d (fun k => V (ix3 k q r)) p :=
  (behind_axis0 V _ hs hc hA p q r).trans (dite_congr rfl (fun _ => rfl) (fun _ => negInf_eq_bot))

/-! ## The three bodies -/

/-- The first body: threshold, then the sliding maximum along the last axis. -/
theorem lastAxis_apply (x : Vec Ideal S8x32x512 .f32) (p : Fin 8) (q : Fin 32) (r : Fin 512) :
    k0_pay1 (F := Ideal) x (ix3 p q r) = slide9 512 (fun w => keepAbove (x (ix3 p q w))) r := by
  unfold k0_pay1 slide9
  simp only [shapeCast_self, maximumf_apply]
  refine congrArg₂ max (congrArg₂ max (congrArg₂ max (congrArg₂ max (congrArg₂ max (congrArg₂ max (congrArg₂ max
    (congrArg₂ max ?_ ?_) ?_) ?_) ?_) ?_) ?_) ?_) ?_
  · rfl
  · refine (ahead2 _ _ _ (by decide) p q r).trans ?_; rfl
  · refine (behind2 _ _ _ (by decide) p q r).trans ?_; rfl
  · refine (ahead2 _ _ _ (by decide) p q r).trans ?_; rfl
  · refine (behind2 _ _ _ (by decide) p q r).trans ?_; rfl
  · refine (ahead2 _ _ _ (by decide) p q r).trans ?_; rfl
  · refine (behind2 _ _ _ (by decide) p q r).trans ?_; rfl
  · refine (ahead2 _ _ _ (by decide) p q r).trans ?_; rfl
  · refine (behind2 _ _ _ (by decide) p q r).trans ?_; rfl

/-- The second body: the sliding maximum along the middle axis. -/
theorem middleAxis_apply (x : Vec Ideal S8x512x128 .f32) (p : Fin 8) (q : Fin 512) (r : Fin 128) :
    k1_pay1 (F := Ideal) x (ix3 p q r) = slide9 512 (fun h => x (ix3 p h r)) q := by
  unfold k1_pay1 slide9
  simp only [shapeCast_self, maximumf_apply]
  refine congrArg₂ max (congrArg₂ max (congrArg₂ max (congrArg₂ max (congrArg₂ max (congrArg₂ max (congrArg₂ max
    (congrArg₂ max ?_ ?_) ?_) ?_) ?_) ?_) ?_) ?_) ?_
  · rfl
  · exact ahead1 _ _ _ (by decide) p q r
  · exact behind1 _ _ _ (by decide) p q r
  · exact ahead1 _ _ _ (by decide) p q r
  · exact behind1 _ _ _ (by decide) p q r
  · exact ahead1 _ _ _ (by decide) p q r
  · exact behind1 _ _ _ (by decide) p q r
  · exact ahead1 _ _ _ (by decide) p q r
  · exact behind1 _ _ _ (by decide) p q r

/-- The third body: the sliding maximum along the leading axis of the first block, then the peak test
    against the second block, thresholded. -/
theorem leadingAxis_apply (x y : Vec Ideal S64x8x512 .f32) (p : Fin 64) (q : Fin 8) (r : Fin 512) :
    k2_pay1 (F := Ideal) x y (ix3 p q r) = peak (slide9 64 (fun d => x (ix3 d q r)) p) (keepAbove (y (ix3 p q r))) := by
  unfold k2_pay1
  simp only [shapeCast_self]
  show peak (maximumf (F := Ideal) (s := S64x8x512) (φ := .f32) _ _ (ix3 p q r)) (keepAbove (y (ix3 p q r))) = _
  refine congrArg (fun P => peak P (keepAbove (y (ix3 p q r)))) ?_
  unfold slide9
  simp only [shapeCast_self, maximumf_apply]
  refine congrArg₂ max (congrArg₂ max (congrArg₂ max (congrArg₂ max (congrArg₂ max (congrArg₂ max (congrArg₂ max
    (congrArg₂ max ?_ ?_) ?_) ?_) ?_) ?_) ?_) ?_) ?_
  · rfl
  · exact ahead0 (A := 64) (A' := 63) (d := 1) _ _ _ (by decide) p q r
  · exact behind0 (A := 64) (A' := 63) (d := 1) _ _ _ (by decide) p q r
  · exact ahead0 (A := 64) (A' := 62) (d := 2) _ _ _ (by decide) p q r
  · exact behind0 (A := 64) (A' := 62) (d := 2) _ _ _ (by decide) p q r
  · exact ahead0 (A := 64) (A' := 61) (d := 3) _ _ _ (by decide) p q r
  · exact behind0 (A := 64) (A' := 61) (d := 3) _ _ _ (by decide) p q r
  · exact ahead0 (A := 64) (A' := 60) (d := 4) _ _ _ (by decide) p q r
  · exact behind0 (A := 64) (A' := 60) (d := 4) _ _ _ (by decide) p q r

end Cert.Peaks.Body

end
-- ==== Proof.Region0.lean ====
/-
  Region 0: the threshold and the sliding maximum along the last axis

  The grid point t = (i, j) handles the block of 8 × 32 × 512 entries at rows 8 i … 8 i + 7, 32 j … 32 j + 31 and the whole last axis.  The block the body
  stores at t is the sliding maximum along the last axis of the thresholded input block, and that axis lies whole inside
  every block, so the stored block is the block at t of ONE array, `alongW` of the input array.
  The output's blocks tile the volume (entry (d, h, w) is in the block of point (d / 8, h / 32)), so
  after the last write-back the output array is `alongW` of the input array, whatever the region
  found in its buffers.
-/
import proofs.«138318_j82523501625529_2_alg».proof.Proof.Gen.KernelIdeal.Frame
import proofs.«138318_j82523501625529_2_alg».proof.Proof.Payload
import Idealize.ShloMosaic.Lib.Pipeline.Value
import Idealize.ShloMosaic.Lib.ValueIdx

set_option maxRecDepth 16384

noncomputable section

namespace Cert.Peaks.Region0

open Idealize.ShloMosaic Idealize.ShloMosaic.TcCoe Idealize.ShloMosaic.ValueIdx Idealize.SL.Sem
open Cert.KernelIdeal Cert.KernelIdeal.Gen Cert.Peaks
open Idealize.ShloMosaic.Pipeline (Dat Cfg Window)

variable (V : (c : Dev nD) → (b : Ref sig .tc) → Buf (Elt Ideal) ((c : Thread nD τ).loc b))

theorem offsets_zero : (![0, 0, 0] : Fin 3 → Nat) = fun _ => 0 := funext fun a => by fin_cases a <;> rfl

/-- The printed index maps, decided over the grid: the input's block and the output's block sit at the same
    place, which is block 0 along the last axis. -/
theorem index_facts : ∀ t : Fin cfg0.N, win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0 :=
  (by decide +kernel : ∀ t : Fin grid0.N, _)

/-- Every block position is some grid point's. -/
theorem index_onto : ∀ (q0 : Fin 8) (q1 : Fin 16), ∃ t : Fin cfg0.N, win0_1.index t = ![q0.val, q1.val, 0] :=
  (by decide +kernel : ∀ (q0 : Fin 8) (q1 : Fin 16), ∃ t : Fin grid0.N, win0_1.index t = ![q0.val, q1.val, 0])

/-- The input window is never written back. -/
theorem input_not_flushed : ∀ t : Fin cfg0.N, (cfg0.win 0).flush t = false :=
  (by decide +kernel : ∀ t : Fin grid0.N, win0_0.flush t = false)

/-- What point `t` writes back is block `t` of `alongW` of the input array. -/
theorem flushed_eq (c : Dev nD) (t : Fin cfg0.N) :
    (dat0 V c).flushed 1 t = ((cfg0.win 1).blk t).view.read (Elt Ideal) (alongW (V c main_v0)) := by
  show (cfg0.win 1).cut (grid0.coords t) ((dat0 V c).after 1 t) = _
  rw [after0_1]
  unfold out0_1
  rw [View.canon_unit_zero offsets_zero]
  simp only [View.ld_unit_zero (S := S8x32x512) offsets_zero]
  obtain ⟨e0, e1, e2, e3⟩ := index_facts t
  funext j
  obtain ⟨p, q, r, rfl⟩ : ∃ (p : Fin 8) (q : Fin 32) (r : Fin 512), j = ix3 p q r := ⟨j 0, j 1, j 2, eq_ix3 j⟩
  show k0_pay1 (F := Ideal) (iblk0 V c 0 t) (ix3 p q r) = alongW (V c main_v0) (((cfg0.win 1).blk t).view.emb (ix3 p q r))
  refine (Body.lastAxis_apply _ p q r).trans ?_
  show slide9 512 (fun w => keepAbove (V c main_v0 (((cfg0.win 0).blk t).view.emb (ix3 p q w)))) r
    = slide9 512 (fun w => keepAbove (V c main_v0 (ix3 ((((cfg0.win 1).blk t).view.emb (ix3 p q r)) 0)
        ((((cfg0.win 1).blk t).view.emb (ix3 p q r)) 1) w))) ((((cfg0.win 1).blk t).view.emb (ix3 p q r)) 2)
  have hr : (((cfg0.win 1).blk t).view.emb (ix3 p q r)) 2 = r := Fin.ext (by
    show win0_1.index t (2 : Fin 3) * 512 + 1 * r.val = r.val
    omega)
  have hidx : ∀ w : Fin 512, ((cfg0.win 0).blk t).view.emb (ix3 p q w)
      = ix3 ((((cfg0.win 1).blk t).view.emb (ix3 p q r)) 0) ((((cfg0.win 1).blk t).view.emb (ix3 p q r)) 1) w := fun w => by
    funext a; apply Fin.ext
    match a with
    | ⟨0, _⟩ => show win0_0.index t (0 : Fin 3) * 8 + 1 * p.val = win0_1.index t (0 : Fin 3) * 8 + 1 * p.val; omega
    | ⟨1, _⟩ => show win0_0.index t (1 : Fin 3) * 32 + 1 * q.val = win0_1.index t (1 : Fin 3) * 32 + 1 * q.val; omega
    | ⟨2, _⟩ => show win0_0.index t (2 : Fin 3) * 512 + 1 * w.val = w.val; omega
  exact congr (congrArg (slide9 512) (funext fun w => congrArg keepAbove (congrArg (V c main_v0) (hidx w)))) hr.symm

/-- An entry of the volume is in point `t`'s block iff each coordinate is in the block's range on its axis. -/
theorem mem_block (t : Fin cfg0.N) (i : S64x512x512.Idx) :
    i ∈ ((cfg0.win 1).blk t).view.set ↔ ∀ a : Fin 3, win0_1.index t a * S8x32x512.size a ≤ (i a).val
      ∧ (i a).val < win0_1.index t a * S8x32x512.size a + S8x32x512.size a := by
  show i ∈ ((View.whole main_v1).slice (win0_1.rect t)).set ↔ _
  rw [View.set_slice_whole, Rect.mem_set_unit]
  exact Iff.rfl

/-- The output's blocks cover the volume. -/
theorem cover (i : S64x512x512.Idx) :
    ∃ t : Fin cfg0.N, (cfg0.win 1).flush t = true ∧ i ∈ ((cfg0.win 1).blk t).view.set := by
  have hi0 : (i 0).val < 64 := (i 0).isLt
  have hi1 : (i 1).val < 512 := (i 1).isLt
  have hi2 : (i 2).val < 512 := (i 2).isLt
  obtain ⟨t, ht⟩ := index_onto ⟨(i 0).val / 8, by omega⟩ ⟨(i 1).val / 32, by omega⟩
  have q0 : win0_1.index t (0 : Fin 3) = (i 0).val / 8 := congrFun ht 0
  have q1 : win0_1.index t (1 : Fin 3) = (i 1).val / 32 := congrFun ht 1
  have q2 : win0_1.index t (2 : Fin 3) = 0 := congrFun ht 2
  refine ⟨t, flush0_1 t, ?_⟩
  rw [mem_block]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 32 ≤ (i 1).val ∧ (i 1).val < win0_1.index t (1 : Fin 3) * 32 + 32; omega
  | ⟨2, _⟩ => show win0_1.index t (2 : Fin 3) * 512 ≤ (i 2).val ∧ (i 2).val < win0_1.index t (2 : Fin 3) * 512 + 512; omega

/-- The output array after the region. -/
theorem output (c : Dev nD) : (dat0 V c).arrAt 1 cfg0.N = alongW (V c main_v0) :=
  (dat0 V c).arrAt_eq_of_cover 1 (alongW (V c main_v0)) (fun t _ => flushed_eq V c t) cover

/-- The input array after the region is as the region found it. -/
theorem input_kept (c : Dev nD) : (dat0 V c).arrAt 0 cfg0.N = V c main_v0 :=
  funext fun i => ((dat0 V c).arrAt_apply_of_forall_not_mem 0 cfg0.N i
    (fun t _ hf => absurd ((input_not_flushed t).symm.trans hf) Bool.false_ne_true)).trans (congrFun (A_eq0 V c 0) i)

end Cert.Peaks.Region0

end
-- ==== Proof.Region1.lean ====
/-
  Region 1: the sliding maximum along the middle axis

  The grid point t = (i, j) handles the block of 8 × 512 × 128 entries at rows 8 i … 8 i + 7, the whole middle axis and columns 128 j … 128 j + 127.  The block the body
  stores at t is the sliding maximum along the middle axis of the input block, and that axis lies whole inside
  every block, so the stored block is the block at t of ONE array, `alongH` of the input array.
  The output's blocks tile the volume (entry (d, h, w) is in the block of point (d / 8, w / 128)), so
  after the last write-back the output array is `alongH` of the input array, whatever the region
  found in its buffers.
-/
import proofs.«138318_j82523501625529_2_alg».proof.Proof.Gen.KernelIdeal.Frame
import proofs.«138318_j82523501625529_2_alg».proof.Proof.Payload
import Idealize.ShloMosaic.Lib.Pipeline.Value
import Idealize.ShloMosaic.Lib.ValueIdx

set_option maxRecDepth 16384

noncomputable section

namespace Cert.Peaks.Region1

open Idealize.ShloMosaic Idealize.ShloMosaic.TcCoe Idealize.ShloMosaic.ValueIdx Idealize.SL.Sem
open Cert.KernelIdeal Cert.KernelIdeal.Gen Cert.Peaks
open Idealize.ShloMosaic.Pipeline (Dat Cfg Window)

variable (V : (c : Dev nD) → (b : Ref sig .tc) → Buf (Elt Ideal) ((c : Thread nD τ).loc b))

theorem offsets_zero : (![0, 0, 0] : Fin 3 → Nat) = fun _ => 0 := funext fun a => by fin_cases a <;> rfl

/-- The printed index maps, decided over the grid: the input's block and the output's block sit at the same
    place, which is block 0 along the middle axis. -/
theorem index_facts : ∀ t : Fin cfg1.N, win1_0.index t (0 : Fin 3) = win1_1.index t (0 : Fin 3)
    ∧ win1_0.index t (2 : Fin 3) = win1_1.index t (2 : Fin 3)
    ∧ win1_0.index t (1 : Fin 3) = 0 ∧ win1_1.index t (1 : Fin 3) = 0 :=
  (by decide +kernel : ∀ t : Fin grid1.N, _)

/-- Every block position is some grid point's. -/
theorem index_onto : ∀ (q0 : Fin 8) (q2 : Fin 4), ∃ t : Fin cfg1.N, win1_1.index t = ![q0.val, 0, q2.val] :=
  (by decide +kernel : ∀ (q0 : Fin 8) (q2 : Fin 4), ∃ t : Fin grid1.N, win1_1.index t = ![q0.val, 0, q2.val])

/-- What point `t` writes back is block `t` of `alongH` of the input array. -/
theorem flushed_eq (c : Dev nD) (t : Fin cfg1.N) :
    (dat1 V c).flushed 1 t = ((cfg1.win 1).blk t).view.read (Elt Ideal) (alongH (V c main_v1)) := by
  show (cfg1.win 1).cut (grid1.coords t) ((dat1 V c).after 1 t) = _
  rw [after1_1]
  unfold out1_1
  rw [View.canon_unit_zero offsets_zero]
  simp only [View.ld_unit_zero (S := S8x512x128) offsets_zero]
  obtain ⟨e0, e1, e2, e3⟩ := index_facts t
  funext j
  obtain ⟨p, q, r, rfl⟩ : ∃ (p : Fin 8) (q : Fin 512) (r : Fin 128), j = ix3 p q r := ⟨j 0, j 1, j 2, eq_ix3 j⟩
  show k1_pay1 (F := Ideal) (iblk1 V c 0 t) (ix3 p q r) = alongH (V c main_v1) (((cfg1.win 1).blk t).view.emb (ix3 p q r))
  refine (Body.middleAxis_apply _ p q r).trans ?_
  show slide9 512 (fun h => V c main_v1 (((cfg1.win 0).blk t).view.emb (ix3 p h r))) q
    = slide9 512 (fun h => V c main_v1 (ix3 ((((cfg1.win 1).blk t).view.emb (ix3 p q r)) 0) h
        ((((cfg1.win 1).blk t).view.emb (ix3 p q r)) 2))) ((((cfg1.win 1).blk t).view.emb (ix3 p q r)) 1)
  have hq : (((cfg1.win 1).blk t).view.emb (ix3 p q r)) 1 = q := Fin.ext (by
    show win1_1.index t (1 : Fin 3) * 512 + 1 * q.val = q.val
    omega)
  have hidx : ∀ h : Fin 512, ((cfg1.win 0).blk t).view.emb (ix3 p h r)
      = ix3 ((((cfg1.win 1).blk t).view.emb (ix3 p q r)) 0) h ((((cfg1.win 1).blk t).view.emb (ix3 p q r)) 2) := fun h => by
    funext a; apply Fin.ext
    match a with
    | ⟨0, _⟩ => show win1_0.index t (0 : Fin 3) * 8 + 1 * p.val = win1_1.index t (0 : Fin 3) * 8 + 1 * p.val; omega
    | ⟨1, _⟩ => show win1_0.index t (1 : Fin 3) * 512 + 1 * h.val = h.val; omega
    | ⟨2, _⟩ => show win1_0.index t (2 : Fin 3) * 128 + 1 * r.val = win1_1.index t (2 : Fin 3) * 128 + 1 * r.val; omega
  exact congr (congrArg (slide9 512) (funext fun h => congrArg (V c main_v1) (hidx h))) hq.symm

/-- An entry of the volume is in point `t`'s block iff each coordinate is in the block's range on its axis. -/
theorem mem_block (t : Fin cfg1.N) (i : S64x512x512.Idx) :
    i ∈ ((cfg1.win 1).blk t).view.set ↔ ∀ a : Fin 3, win1_1.index t a * S8x512x128.size a ≤ (i a).val
      ∧ (i a).val < win1_1.index t a * S8x512x128.size a + S8x512x128.size a := by
  show i ∈ ((View.whole main_v2).slice (win1_1.rect t)).set ↔ _
  rw [View.set_slice_whole, Rect.mem_set_unit]
  exact Iff.rfl

/-- The output's blocks cover the volume. -/
theorem cover (i : S64x512x512.Idx) :
    ∃ t : Fin cfg1.N, (cfg1.win 1).flush t = true ∧ i ∈ ((cfg1.win 1).blk t).view.set := by
  have hi0 : (i 0).val < 64 := (i 0).isLt
  have hi1 : (i 1).val < 512 := (i 1).isLt
  have hi2 : (i 2).val < 512 := (i 2).isLt
  obtain ⟨t, ht⟩ := index_onto ⟨(i 0).val / 8, by omega⟩ ⟨(i 2).val / 128, by omega⟩
  have q0 : win1_1.index t (0 : Fin 3) = (i 0).val / 8 := congrFun ht 0
  have q1 : win1_1.index t (1 : Fin 3) = 0 := congrFun ht 1
  have q2 : win1_1.index t (2 : Fin 3) = (i 2).val / 128 := congrFun ht 2
  refine ⟨t, flush1_1 t, ?_⟩
  rw [mem_block]
  intro a
  match a with
  | ⟨0, _⟩ => show win1_1.index t (0 : Fin 3) * 8 ≤ (i 0).val ∧ (i 0).val < win1_1.index t (0 : Fin 3) * 8 + 8; omega
  | ⟨1, _⟩ => show win1_1.index t (1 : Fin 3) * 512 ≤ (i 1).val ∧ (i 1).val < win1_1.index t (1 : Fin 3) * 512 + 512; omega
  | ⟨2, _⟩ => show win1_1.index t (2 : Fin 3) * 128 ≤ (i 2).val ∧ (i 2).val < win1_1.index t (2 : Fin 3) * 128 + 128; omega

/-- The output array after the region. -/
theorem output (c : Dev nD) : (dat1 V c).arrAt 1 cfg1.N = alongH (V c main_v1) :=
  (dat1 V c).arrAt_eq_of_cover 1 (alongH (V c main_v1)) (fun t _ => flushed_eq V c t) cover

end Cert.Peaks.Region1

end
-- ==== Proof.Region2.lean ====
/-
  Region 2: the sliding maximum along the leading axis and the peak test

  The grid point t = i handles the block of 64 × 8 × 512 entries at the whole leading axis, rows 8 i … 8 i + 7 and the whole last axis, of the pooled array and of the unthresholded volume alike.  The block the body
  stores at t is the sliding maximum along the leading axis of the first input block, put through the peak test against the second input block thresholded, and that axis lies whole inside
  every block, so the stored block is the block at t of ONE array, `alongD` of the two input arrays.
  The output's blocks tile the volume (entry (d, h, w) is in the block of point (h / 8)), so
  after the last write-back the output array is `alongD` of the two input arrays, whatever the region
  found in its buffers.
-/
import proofs.«138318_j82523501625529_2_alg».proof.Proof.Gen.KernelIdeal.Frame
import proofs.«138318_j82523501625529_2_alg».proof.Proof.Payload
import Idealize.ShloMosaic.Lib.Pipeline.Value
import Idealize.ShloMosaic.Lib.ValueIdx

set_option maxRecDepth 16384

noncomputable section

namespace Cert.Peaks.Region2

open Idealize.ShloMosaic Idealize.ShloMosaic.TcCoe Idealize.ShloMosaic.ValueIdx Idealize.SL.Sem
open Cert.KernelIdeal Cert.KernelIdeal.Gen Cert.Peaks
open Idealize.ShloMosaic.Pipeline (Dat Cfg Window)

variable (V : (c : Dev nD) → (b : Ref sig .tc) → Buf (Elt Ideal) ((c : Thread nD τ).loc b))

theorem offsets_zero : (![0, 0, 0] : Fin 3 → Nat) = fun _ => 0 := funext fun a => by fin_cases a <;> rfl

/-- The printed index maps, decided over the grid: the three windows' blocks sit at the same place, which is
    block 0 along the leading and the last axis. -/
theorem index_facts : ∀ t : Fin cfg2.N, win2_0.index t (1 : Fin 3) = win2_2.index t (1 : Fin 3)
    ∧ win2_1.index t (1 : Fin 3) = win2_2.index t (1 : Fin 3)
    ∧ win2_0.index t (0 : Fin 3) = 0 ∧ win2_0.index t (2 : Fin 3) = 0
    ∧ win2_1.index t (0 : Fin 3) = 0 ∧ win2_1.index t (2 : Fin 3) = 0
    ∧ win2_2.index t (0 : Fin 3) = 0 ∧ win2_2.index t (2 : Fin 3) = 0 :=
  (by decide +kernel : ∀ t : Fin grid2.N, _)

/-- Every block position is some grid point's. -/
theorem index_onto : ∀ (q1 : Fin 64), ∃ t : Fin cfg2.N, win2_2.index t = ![0, q1.val, 0] :=
  (by decide +kernel : ∀ (q1 : Fin 64), ∃ t : Fin grid2.N, win2_2.index t = ![0, q1.val, 0])

/-- What point `t` writes back is block `t` of `alongD` of the two input arrays. -/
theorem flushed_eq (c : Dev nD) (t : Fin cfg2.N) :
    (dat2 V c).flushed 2 t = ((cfg2.win 2).blk t).view.read (Elt Ideal) (alongD (V c main_v2) (V c main_v0)) := by
  show (cfg2.win 2).cut (grid2.coords t) ((dat2 V c).after 2 t) = _
  rw [after2_2]
  unfold out2_2
  rw [View.canon_unit_zero offsets_zero]
  simp only [View.ld_unit_zero (S := S64x8x512) offsets_zero]
  obtain ⟨e0, e1, e2, e3, e4, e5, e6, e7⟩ := index_facts t
  funext j
  obtain ⟨p, q, r, rfl⟩ : ∃ (p : Fin 64) (q : Fin 8) (r : Fin 512), j = ix3 p q r := ⟨j 0, j 1, j 2, eq_ix3 j⟩
  show k2_pay1 (F := Ideal) (iblk2 V c 0 t) (iblk2 V c 1 t) (ix3 p q r)
    = alongD (V c main_v2) (V c main_v0) (((cfg2.win 2).blk t).view.emb (ix3 p q r))
  refine (Body.leadingAxis_apply _ _ p q r).trans ?_
  show peak (slide9 64 (fun d => V c main_v2 (((cfg2.win 0).blk t).view.emb (ix3 d q r))) p)
      (keepAbove (V c main_v0 (((cfg2.win 1).blk t).view.emb (ix3 p q r))))
    = peak (slide9 64 (fun d => V c main_v2 (ix3 d ((((cfg2.win 2).blk t).view.emb (ix3 p q r)) 1)
        ((((cfg2.win 2).blk t).view.emb (ix3 p q r)) 2))) ((((cfg2.win 2).blk t).view.emb (ix3 p q r)) 0))
      (keepAbove (V c main_v0 (((cfg2.win 2).blk t).view.emb (ix3 p q r))))
  have hp : (((cfg2.win 2).blk t).view.emb (ix3 p q r)) 0 = p := Fin.ext (by
    show win2_2.index t (0 : Fin 3) * 64 + 1 * p.val = p.val
    omega)
  have hidx : ∀ d : Fin 64, ((cfg2.win 0).blk t).view.emb (ix3 d q r)
      = ix3 d ((((cfg2.win 2).blk t).view.emb (ix3 p q r)) 1) ((((cfg2.win 2).blk t).view.emb (ix3 p q r)) 2) := fun d => by
    funext a; apply Fin.ext
    match a with
    | ⟨0, _⟩ => show win2_0.index t (0 : Fin 3) * 64 + 1 * d.val = d.val; omega
    | ⟨1, _⟩ => show win2_0.index t (1 : Fin 3) * 8 + 1 * q.val = win2_2.index t (1 : Fin 3) * 8 + 1 * q.val; omega
    | ⟨2, _⟩ => show win2_0.index t (2 : Fin 3) * 512 + 1 * r.val = win2_2.index t (2 : Fin 3) * 512 + 1 * r.val; omega
  have hy : ((cfg2.win 1).blk t).view.emb (ix3 p q r) = ((cfg2.win 2).blk t).view.emb (ix3 p q r) := by
    funext a; apply Fin.ext
    match a with
    | ⟨0, _⟩ => show win2_1.index t (0 : Fin 3) * 64 + 1 * p.val = win2_2.index t (0 : Fin 3) * 64 + 1 * p.val; omega
    | ⟨1, _⟩ => show win2_1.index t (1 : Fin 3) * 8 + 1 * q.val = win2_2.index t (1 : Fin 3) * 8 + 1 * q.val; omega
    | ⟨2, _⟩ => show win2_1.index t (2 : Fin 3) * 512 + 1 * r.val = win2_2.index t (2 : Fin 3) * 512 + 1 * r.val; omega
  exact congrArg₂ peak (congr (congrArg (slide9 64) (funext fun d => congrArg (V c main_v2) (hidx d))) hp.symm)
    (congrArg keepAbove (congrArg (V c main_v0) hy))

/-- An entry of the volume is in point `t`'s block iff each coordinate is in the block's range on its axis. -/
theorem mem_block (t : Fin cfg2.N) (i : S64x512x512.Idx) :
    i ∈ ((cfg2.win 2).blk t).view.set ↔ ∀ a : Fin 3, win2_2.index t a * S64x8x512.size a ≤ (i a).val
      ∧ (i a).val < win2_2.index t a * S64x8x512.size a + S64x8x512.size a := by
  show i ∈ ((View.whole main_v3).slice (win2_2.rect t)).set ↔ _
  rw [View.set_slice_whole, Rect.mem_set_unit]
  exact Iff.rfl

/-- The output's blocks cover the volume. -/
theorem cover (i : S64x512x512.Idx) :
    ∃ t : Fin cfg2.N, (cfg2.win 2).flush t = true ∧ i ∈ ((cfg2.win 2).blk t).view.set := by
  have hi0 : (i 0).val < 64 := (i 0).isLt
  have hi1 : (i 1).val < 512 := (i 1).isLt
  have hi2 : (i 2).val < 512 := (i 2).isLt
  obtain ⟨t, ht⟩ := index_onto ⟨(i 1).val / 8, by omega⟩
  have q0 : win2_2.index t (0 : Fin 3) = 0 := congrFun ht 0
  have q1 : win2_2.index t (1 : Fin 3) = (i 1).val / 8 := congrFun ht 1
  have q2 : win2_2.index t (2 : Fin 3) = 0 := congrFun ht 2
  refine ⟨t, flush2_2 t, ?_⟩
  rw [mem_block]
  intro a
  match a with
  | ⟨0, _⟩ => show win2_2.index t (0 : Fin 3) * 64 ≤ (i 0).val ∧ (i 0).val < win2_2.index t (0 : Fin 3) * 64 + 64; omega
  | ⟨1, _⟩ => show win2_2.index t (1 : Fin 3) * 8 ≤ (i 1).val ∧ (i 1).val < win2_2.index t (1 : Fin 3) * 8 + 8; omega
  | ⟨2, _⟩ => show win2_2.index t (2 : Fin 3) * 512 ≤ (i 2).val ∧ (i 2).val < win2_2.index t (2 : Fin 3) * 512 + 512; omega

/-- The output array after the region. -/
theorem output (c : Dev nD) : (dat2 V c).arrAt 2 cfg2.N = alongD (V c main_v2) (V c main_v0) :=
  (dat2 V c).arrAt_eq_of_cover 2 (alongD (V c main_v2) (V c main_v0)) (fun t _ => flushed_eq V c t) cover

end Cert.Peaks.Region2

end
-- ==== Proof.KernelRun.lean ====
/-
  The kernel's run, with its result named.

  @main reshapes the argument to a volume (dropping its two unit axes), then runs the three regions one
  after the other: the first writes `alongW` of the volume, the second `alongH` of that, the third
  `alongD` of that and of the volume itself, which no region writes.  Every buffer's contents at each
  boundary are what the previous boundary held with the region's arrays replaced by what its write-backs
  leave, so the result buffer ends at `peaks` of the argument and the argument ends as launched.
-/
import proofs.«138318_j82523501625529_2_alg».proof.Proof.Gen.KernelIdeal.Frame
import proofs.«138318_j82523501625529_2_alg».proof.Proof.Region0
import proofs.«138318_j82523501625529_2_alg».proof.Proof.Region1
import proofs.«138318_j82523501625529_2_alg».proof.Proof.Region2
import Idealize.ShloMosaic.Lib.StableHlo.Run
import Idealize.ShloMosaic.Lib.Pipeline.Value

set_option maxRecDepth 16384

noncomputable section

namespace Cert.Peaks.Kernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Peaks

section Named

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at what the last
    boundary holds there and the argument as launched. -/
theorem run_named : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
        (h c _ (mem_uc main_arg0 (by decide))).trans (W4_main_arg0 m ρ c)⟩)

end Named

/-! ## The boundaries' contents, at the ideal instance -/

variable (m : (ℓ : Loc nD τ sig) → Buf (Elt Ideal) ℓ) (ρ : Dev nD → PrngReg)

/-- The first region finds the argument, read as a volume, in its input array: a reshape that drops two unit
    axes keeps the row-major position. -/
theorem volume_at_entry (c : Dev nD) : V1 m ρ c main_v0 = flat (m ((c.tc : Thread nD τ).loc main_arg0)) := by
  have e : (V1 m ρ c main_v0 : S64x512x512.Idx → EReal)
      = shapeCast S64x512x512 (m ((c.tc : Thread nD τ).loc main_arg0)) shapeCasts_S1x1x64x512x512_S64x512x512 := by
    show StableHlo.after hostOps0 (W0 m ρ c) (Proc.devRef .tc main_v0) = _
    after_results; rfl
  rw [e]
  funext i
  obtain ⟨d, h, w, rfl⟩ : ∃ (d : Fin 64) (h : Fin 512) (w : Fin 512), i = ix3 d h w := ⟨i 0, i 1, i 2, eq_ix3 i⟩
  refine (shapeCast_apply _ _ (ix3 d h w) (ix5 0 0 d h w) ?_).trans rfl
  rw [Shape.rowMajor_val_five, Shape.rowMajor_val_three]
  show ((((0 * 1 + 0) * 64 + d.val) * 512 + h.val) * 512 + w.val) = (d.val * 512 + h.val) * 512 + w.val
  omega

/-- After the first region: its output array. -/
theorem after_first (c : Dev nD) : V2 m ρ c main_v1 = alongW (flat (m ((c.tc : Thread nD τ).loc main_arg0))) :=
  (W2_arr m ρ c 1).trans ((Region0.output (V1 m ρ) c).trans (congrArg alongW (volume_at_entry m ρ c)))

/-- After the first region: the volume is still there. -/
theorem volume_after_first (c : Dev nD) : V2 m ρ c main_v0 = flat (m ((c.tc : Thread nD τ).loc main_arg0)) :=
  (W2_arr m ρ c 0).trans ((Region0.input_kept (V1 m ρ) c).trans (volume_at_entry m ρ c))

/-- After the second region: its output array. -/
theorem after_second (c : Dev nD) :
    V3 m ρ c main_v2 = alongH (alongW (flat (m ((c.tc : Thread nD τ).loc main_arg0)))) :=
  (W3_arr m ρ c 1).trans ((Region1.output (V2 m ρ) c).trans (congrArg alongH (after_first m ρ c)))

/-- After the second region: the volume is still there (the second region does not touch it). -/
theorem volume_after_second (c : Dev nD) : V3 m ρ c main_v0 = flat (m ((c.tc : Thread nD τ).loc main_arg0)) :=
  (W3_of_ne m ρ c main_v0 (by decide)).trans (volume_after_first m ρ c)

/-- After the third region: the result. -/
theorem after_third (c : Dev nD) :
    W4 m ρ c (Proc.devRef .tc main_v3) = peaks (m ((c.tc : Thread nD τ).loc main_arg0)) :=
  (W4_arr m ρ c 2).trans ((Region2.output (V3 m ρ) c).trans
    (congrArg₂ alongD (after_second m ρ c) (volume_after_second m ρ c)))

/-- The kernel's run at the ideal instance: the result buffer ends at `peaks` of the argument, the argument as
    launched. -/
theorem run : θ_run defs (onTc (τ := τ) (main (F := Ideal))) ⟨m, fun _ => 0, ρ⟩ (fun r => ∀ c : Dev nD,
      r.2.mem ((c.tc : Thread nD τ).loc main_v3) = peaks (m ((c.tc : Thread nD τ).loc main_arg0))
      ∧ r.2.mem ((c.tc : Thread nD τ).loc main_arg0) = m ((c.tc : Thread nD τ).loc main_arg0)) :=
  (θ_run defs _ _).mono (fun r h c => ⟨(h c).1.trans (after_third m ρ c), (h c).2⟩) (run_named m ρ)

end Cert.Peaks.Kernel

end
-- ==== Proof.RefWindow.lean ====
/-
  A window reduction by `max` from `-∞`, read at an index, is the box maximum.

  The reduction's value at a result index is a left fold of `max`, started at the initial value, over the
  729 positions of a 1 × 1 × 9 × 9 × 9 window taken in row-major order: a position contributes the operand's
  entry where it falls inside the operand and the initial value where it falls in the padding.

  What such a fold is bounded by does not depend on the order of the fold: starting from `-∞`, the fold is
  `≤ z` exactly when every contribution is `≤ z`.  Two extended reals with the same upper bounds are equal,
  so it is enough to compare upper bounds with those of the three nested nine-entry sliding maxima, which are
  the bounds of every entry of the 9 × 9 × 9 box that lies inside the volume.

  Positions and box entries match as follows.  With stride one and padding four, the window position
  `(a, b, c)`, each coordinate below nine, read at `(d, h, w)` falls on `(d + a - 4, h + b - 4, w + c - 4)`,
  and it is inside the operand exactly when these three numbers are coordinates of the volume; the two leading
  unit axes always are.  Conversely the entry `(d', h', w')` of the volume within distance four of
  `(d, h, w)` on each axis is the one the position `(d' + 4 - d, h' + 4 - h, w' + 4 - w)` falls on.
  Positions in the padding contribute `-∞`, which bounds nothing.
-/
import Idealize.ShloMosaic.PureOps.Contract
import Idealize.ShloMosaic.PureOps.Ideal
import Idealize.ShloMosaic.Lib.ValueIdx
import proofs.«138318_j82523501625529_2_alg».proof.Proof.Spec

noncomputable section

namespace Cert.Peaks

open Idealize.ShloMosaic Idealize.ShloMosaic.ValueIdx

/-! ## A fold of `max` is bounded exactly when its start and every term are -/

/-- In a linear order, the left fold of `max` over a list of terms `g n`, started at `b`, is `≤ z`
    exactly when `b ≤ z` and every term is `≤ z`; the order of the list plays no part. -/
theorem foldl_max_le_iff {α ι : Type} [LinearOrder α] (g : ι → α) (l : List ι) (b z : α) :
    l.foldl (fun r n => max r (g n)) b ≤ z ↔ b ≤ z ∧ ∀ n ∈ l, g n ≤ z := by
  induction l generalizing b with
  | nil => simp
  | cons a l ih =>
    simp only [List.foldl_cons, ih, max_le_iff, List.mem_cons, forall_eq_or_imp, and_assoc]

/-- A term that is `f hc` when a condition `c` holds and the least element otherwise is `≤ z` exactly when
    `f hc ≤ z` for every proof `hc` of the condition. -/
theorem dite_bot_le_iff {α : Type} [Preorder α] [OrderBot α] (c : Prop) [Decidable c] (f : c → α) (z : α) :
    (if hc : c then f hc else ⊥) ≤ z ↔ ∀ hc : c, f hc ≤ z := by
  split
  · next hc => exact ⟨fun hz _ => hz, fun hz => hz hc⟩
  · next hc => exact ⟨fun _ hc' => absurd hc' hc, fun _ => bot_le⟩

/-! ## The window reduction by `max` from `-∞`, by its upper bounds -/

/-- For any shapes, window, strides and padding: the window reduction by `max` of extended reals from the
    initial value `-∞`, read at `j`, is `≤ z` exactly when, for every window position `q` that falls inside
    the operand, the operand's entry it falls on is `≤ z`.  The fold over the row-major enumeration of the
    positions becomes a statement about all positions, the enumeration being a bijection. -/
theorem reduceWindow_max_le_iff {s t u : Shape} (window strides lo hi : Fin s.rank → Nat) (x : s.Idx → EReal)
    (init : u.Idx → EReal) (hinit : ∀ k, init k = ⊥) (h : s.ReduceWindows window strides lo hi t) (hu : 0 < u.numel)
    (j : t.Idx) (z : EReal) :
    Host.reduceWindow (max : EReal → EReal → EReal) window strides lo hi x init h hu j ≤ z ↔
      ∀ (q : (⟨s.rank, window⟩ : Shape).Idx)
        (hin : ∀ a, lo a ≤ (j (a.cast h.1.symm)).val * strides a + (q a).val ∧
            (j (a.cast h.1.symm)).val * strides a + (q a).val - lo a < s.size a),
          x (fun a => ⟨(j (a.cast h.1.symm)).val * strides a + (q a).val - lo a, (hin a).2⟩) ≤ z := by
  unfold Host.reduceWindow
  simp only [hinit]
  refine (foldl_max_le_iff _ _ _ _).trans ?_
  refine (and_iff_right bot_le).trans ?_
  simp only [List.mem_finRange, forall_true_left, dite_bot_le_iff]
  exact (Equiv.forall_congr_left (Shape.rowMajor ⟨s.rank, window⟩)
    (p := fun q => ∀ (hin : ∀ a, lo a ≤ (j (a.cast h.1.symm)).val * strides a + (q a).val ∧
            (j (a.cast h.1.symm)).val * strides a + (q a).val - lo a < s.size a),
          x (fun a => ⟨(j (a.cast h.1.symm)).val * strides a + (q a).val - lo a, (hin a).2⟩) ≤ z)).symm

/-! ## The 1 × 1 × 9 × 9 × 9 window's positions -/

/-- A statement about every position of the 1 × 1 × 9 × 9 × 9 window is one about every triple of
    coordinates below nine: the two leading coordinates of a position can only be zero. -/
theorem forall_window_iff (P : (⟨5, ![1, 1, 9, 9, 9]⟩ : Shape).Idx → Prop) :
    (∀ q, P q) ↔ ∀ a b c : Fin 9, P (ix5 0 0 a b c) := by
  constructor
  · intro H a b c; exact H _
  · intro H q
    have e : q = ix5 0 0 (q 2) (q 3) (q 4) := by
      funext ax
      match ax with
      | ⟨0, _⟩ => exact Subsingleton.elim (α := Fin 1) _ _
      | ⟨1, _⟩ => exact Subsingleton.elim (α := Fin 1) _ _
      | ⟨2, _⟩ => rfl
      | ⟨3, _⟩ => rfl
      | ⟨4, _⟩ => rfl
    rw [e]
    exact H _ _ _

/-! ## The reduction read at an index -/

/-- The window reduction with body `max`, window nine and padding four on the last three axes of the
    1 × 1 × 64 × 512 × 512 argument, from the initial value `-∞`, read at `(0, 0, d, h, w)`, is the three
    nested nine-entry sliding maxima around `(d, h, w)`.  Both sides have the same upper bounds: the position
    `(a, b, c)` falls on `(d + a - 4, h + b - 4, w + c - 4)` when that is inside the volume, and the entry
    `(d', h', w')` within distance four is reached from the position `(d' + 4 - d, h' + 4 - h, w' + 4 - w)`. -/
theorem reduceWindow_max_apply (T : Arg.Idx → EReal) (init : (⟨0, ![]⟩ : Shape).Idx → EReal) (hinit : ∀ k, init k = ⊥)
    (hw : Arg.ReduceWindows (![1, 1, 9, 9, 9] : Fin 5 → Nat) ![1, 1, 1, 1, 1] ![0, 0, 4, 4, 4] ![0, 0, 4, 4, 4] Arg)
    (hu : 0 < (⟨0, ![]⟩ : Shape).numel) (d : Fin 64) (h : Fin 512) (w : Fin 512) :
    Host.reduceWindow (max : EReal → EReal → EReal) ![1, 1, 9, 9, 9] ![1, 1, 1, 1, 1] ![0, 0, 4, 4, 4] ![0, 0, 4, 4, 4]
        T init hw hu (ix5 0 0 d h w)
      = slide9 64 (fun d' => slide9 512 (fun h' => slide9 512 (fun w' => T (ix5 0 0 d' h' w')) w) h) d := by
  refine eq_of_forall_ge_iff fun z => ?_
  refine (reduceWindow_max_le_iff _ _ _ _ T init hinit hw hu _ z).trans ?_
  refine Iff.trans ?_ (box_le_iff (fun d' h' w' => T (ix5 0 0 d' h' w')) d h w z).symm
  refine (forall_window_iff _).trans ?_
  constructor
  · -- every position bounded: the entry (d', h', w') is the one the position (d'+4-d, h'+4-h, w'+4-w) falls on
    intro H d' h' w' h1 h2 h3 h4 h5 h6
    refine le_of_eq_of_le ?e (H ⟨d'.val + 4 - d.val, by omega⟩ ⟨h'.val + 4 - h.val, by omega⟩
      ⟨w'.val + 4 - w.val, by omega⟩ ?hin)
    case hin =>
      intro ax
      match ax with
      | ⟨0, _⟩ => exact ⟨by show (0 : ℕ) ≤ 0 * 1 + 0; omega, by show 0 * 1 + 0 - 0 < 1; omega⟩
      | ⟨1, _⟩ => exact ⟨by show (0 : ℕ) ≤ 0 * 1 + 0; omega, by show 0 * 1 + 0 - 0 < 1; omega⟩
      | ⟨2, _⟩ => exact ⟨by show 4 ≤ d.val * 1 + (d'.val + 4 - d.val); omega,
          by show d.val * 1 + (d'.val + 4 - d.val) - 4 < 64; omega⟩
      | ⟨3, _⟩ => exact ⟨by show 4 ≤ h.val * 1 + (h'.val + 4 - h.val); omega,
          by show h.val * 1 + (h'.val + 4 - h.val) - 4 < 512; omega⟩
      | ⟨4, _⟩ => exact ⟨by show 4 ≤ w.val * 1 + (w'.val + 4 - w.val); omega,
          by show w.val * 1 + (w'.val + 4 - w.val) - 4 < 512; omega⟩
    case e =>
      refine congrArg T (funext fun ax => ?_)
      match ax with
      | ⟨0, _⟩ => exact Fin.ext (show (0 : ℕ) = 0 * 1 + 0 - 0 by omega)
      | ⟨1, _⟩ => exact Fin.ext (show (0 : ℕ) = 0 * 1 + 0 - 0 by omega)
      | ⟨2, _⟩ => exact Fin.ext (show d'.val = d.val * 1 + (d'.val + 4 - d.val) - 4 by omega)
      | ⟨3, _⟩ => exact Fin.ext (show h'.val = h.val * 1 + (h'.val + 4 - h.val) - 4 by omega)
      | ⟨4, _⟩ => exact Fin.ext (show w'.val = w.val * 1 + (w'.val + 4 - w.val) - 4 by omega)
  · -- every box entry bounded: the position (a, b, c), when inside, falls on (d+a-4, h+b-4, w+c-4)
    intro H a b c hin
    have p2 : (2 : ℕ) < 5 := by omega
    have p3 : (3 : ℕ) < 5 := by omega
    have p4 : (4 : ℕ) < 5 := by omega
    have k2 : 4 ≤ d.val * 1 + a.val ∧ d.val * 1 + a.val - 4 < 64 := hin ⟨2, p2⟩
    have k3 : 4 ≤ h.val * 1 + b.val ∧ h.val * 1 + b.val - 4 < 512 := hin ⟨3, p3⟩
    have k4 : 4 ≤ w.val * 1 + c.val ∧ w.val * 1 + c.val - 4 < 512 := hin ⟨4, p4⟩
    refine le_of_eq_of_le ?_ (H ⟨d.val + a.val - 4, by omega⟩ ⟨h.val + b.val - 4, by omega⟩
      ⟨w.val + c.val - 4, by omega⟩ ?_ ?_ ?_ ?_ ?_ ?_)
    · refine congrArg T (funext fun ax => ?_)
      match ax with
      | ⟨0, _⟩ => exact Fin.ext (show 0 * 1 + 0 - 0 = (0 : ℕ) by omega)
      | ⟨1, _⟩ => exact Fin.ext (show 0 * 1 + 0 - 0 = (0 : ℕ) by omega)
      | ⟨2, _⟩ => exact Fin.ext (show d.val * 1 + a.val - 4 = d.val + a.val - 4 by omega)
      | ⟨3, _⟩ => exact Fin.ext (show h.val * 1 + b.val - 4 = h.val + b.val - 4 by omega)
      | ⟨4, _⟩ => exact Fin.ext (show w.val * 1 + c.val - 4 = w.val + c.val - 4 by omega)
    all_goals (dsimp only; omega)

end Cert.Peaks

end
-- ==== Proof.ReferenceValue.lean ====
/-
  The reference's result is the thresholded local maxima of its argument.

  The result is stated as a reshape of a select.  With `t` the argument thresholded (`x` where `x > 1/2`, zero
  elsewhere) and `p` the window maximum of `t` (window nine and padding four on the last three axes, from
  `-∞`), the five-axis array holds `p` where `p > 0` and `p = t`, and zero elsewhere; the result is that array
  read under the shape 64 × 512 × 512.

  Read at a voxel `(d, h, w)`: the reshape keeps the row-major position, and `(0, 0, d, h, w)` has the same
  position in the 1 × 1 × 64 × 512 × 512 array as `(d, h, w)` has in the volume.  A rank-zero constant broadcast
  to any shape reads the constant everywhere.  Comparison, conjunction and select act entry by entry.  The
  thresholded array at an index is the threshold of the argument there, and the window maximum at
  `(0, 0, d, h, w)` is the three nested nine-entry sliding maxima of the thresholded values, that is the box
  maximum around the voxel.  The entry is therefore the peak test of the box maximum against the thresholded
  value, which is what the specification's three passes give at that voxel.
-/
import proofs.«138318_j82523501625529_2_alg».proof.Proof.Gen.ReferenceIdeal
import proofs.«138318_j82523501625529_2_alg».proof.Proof.Spec
import proofs.«138318_j82523501625529_2_alg».proof.Proof.RefWindow
import Idealize.ShloMosaic.Lib.Pipeline.Value
import Idealize.ShloMosaic.Lib.ValueIdx

noncomputable section

namespace Cert.Peaks.Reference

open Cert.ReferenceIdeal Cert.ReferenceIdeal.Gen Idealize.ShloMosaic Idealize.ShloMosaic.ValueIdx Cert.Peaks

/-- A rank-zero constant broadcast to the argument's shape reads the constant's value at every index. -/
theorem bcastConst_apply (b : BitVec (FTy.f32).bits) (i : S1x1x64x512x512.Idx) :
    broadcastInDim S1x1x64x512x512 ![] bcast_S_S1x1x64x512x512 (constant (F := Ideal) S_ .f32 b) i
      = Ideal.ofBits .f32 b :=
  (broadcastInDim_apply _ bcast_S_S1x1x64x512x512 _ i (fun a => a.elim0) (fun a => a.elim0)).trans rfl

/-- The window reduction's initial value, the rank-zero constant of the word of minus infinity broadcast to rank
    zero, is `-∞` at its one index. -/
theorem negInf_apply (k : S_.Idx) :
    (broadcastInDim S_ ![] bcast_S_S_ (constant (F := Ideal) S_ .f32 0xFF800000#32)) k = (⊥ : EReal) :=
  (broadcastInDim_apply _ bcast_S_S_ _ k (fun a => a.elim0) (fun a => a.elim0)).trans negInf_eq_bot

/-- The thresholded array at an index is the threshold of the argument's entry there: the entry where it
    exceeds one half, zero elsewhere. -/
theorem thresh_apply (x : (⟨S1x1x64x512x512, .f32⟩ : BufTy).Contents (Elt Ideal)) (i : S1x1x64x512x512.Idx) :
    (select (cmpf (F := Ideal) (φ := .f32) .ogt x (broadcastInDim S1x1x64x512x512 ![] bcast_S_S1x1x64x512x512 (constant (F := Ideal) S_ .f32 0x3F000000#32))) x (broadcastInDim S1x1x64x512x512 ![] bcast_S_S1x1x64x512x512 (constant (F := Ideal) S_ .f32 0x00000000#32))) i = keepAbove (x i) := by
  show Scalar.select (FloatOps.cmpf (F := Ideal) (φ := .f32) .ogt (x i) ((broadcastInDim S1x1x64x512x512 ![] bcast_S_S1x1x64x512x512 (constant (F := Ideal) S_ .f32 0x3F000000#32)) i)) (x i) ((broadcastInDim S1x1x64x512x512 ![] bcast_S_S1x1x64x512x512 (constant (F := Ideal) S_ .f32 0x00000000#32)) i) = keepAbove (x i)
  rw [bcastConst_apply, bcastConst_apply]
  rfl

/-- The window maximum of the thresholded array at `(0, 0, d, h, w)` is the thresholded box maximum around
    `(d, h, w)`: three nested nine-entry sliding maxima of the thresholded values. -/
theorem window_apply (x : (⟨S1x1x64x512x512, .f32⟩ : BufTy).Contents (Elt Ideal)) (d : Fin 64) (h : Fin 512) (w : Fin 512) :
    (Host.reduceWindow (FloatOps.maximumf (F := Ideal) (φ := .f32)) ![1, 1, 9, 9, 9] ![1, 1, 1, 1, 1] ![0, 0, 4, 4, 4] ![0, 0, 4, 4, 4] (select (cmpf (F := Ideal) (φ := .f32) .ogt x (broadcastInDim S1x1x64x512x512 ![] bcast_S_S1x1x64x512x512 (constant (F := Ideal) S_ .f32 0x3F000000#32))) x (broadcastInDim S1x1x64x512x512 ![] bcast_S_S1x1x64x512x512 (constant (F := Ideal) S_ .f32 0x00000000#32))) (broadcastInDim S_ ![] bcast_S_S_ (constant (F := Ideal) S_ .f32 0xFF800000#32)) reduceWindows_S1x1x64x512x512_S1x1x64x512x512_w1s1p0_0_w1s1p0_0_w9s1p4_4_w9s1p4_4_w9s1p4_4 h_S_) (ix5 0 0 d h w) = boxMax x d h w := by
  have e : (select (cmpf (F := Ideal) (φ := .f32) .ogt x (broadcastInDim S1x1x64x512x512 ![] bcast_S_S1x1x64x512x512 (constant (F := Ideal) S_ .f32 0x3F000000#32))) x (broadcastInDim S1x1x64x512x512 ![] bcast_S_S1x1x64x512x512 (constant (F := Ideal) S_ .f32 0x00000000#32))) = fun i => keepAbove (x i) := funext (thresh_apply x)
  rw [e]
  exact reduceWindow_max_apply (fun i => keepAbove (x i)) _ negInf_apply reduceWindows_S1x1x64x512x512_S1x1x64x512x512_w1s1p0_0_w1s1p0_0_w9s1p4_4_w9s1p4_4_w9s1p4_4 h_S_ d h w

/-- Comparison, conjunction and select act entry by entry: where an array `R` reads `p`, an array `Zr` reads
    zero and an array `Tr` reads `t`, the select of `R` against `Zr` on "`R > Zr` and `R = Tr`" reads the peak
    test of `p` against `t`. -/
theorem peak_of_eq {s : Shape} (R Zr Tr : s.Idx → EReal) (j : s.Idx) (p t : EReal) (e1 : R j = p)
    (e2 : Zr j = Ideal.ofBits .f32 0x00000000#32) (e3 : Tr j = t) :
    select (andi (cmpf (F := Ideal) (φ := .f32) .ogt R Zr) (cmpf (F := Ideal) (φ := .f32) .oeq R Tr)) R Zr j = peak p t := by
  show Scalar.select (IntOp.andi (FloatOps.cmpf (F := Ideal) (φ := .f32) .ogt (R j) (Zr j))
    (FloatOps.cmpf (F := Ideal) (φ := .f32) .oeq (R j) (Tr j))) (R j) (Zr j) = peak p t
  rw [e1, e2, e3]
  rfl

/-- The reference's result, as a term of its argument `x`, is the thresholded local maxima of `x`.  At the
    voxel `(d, h, w)` the reshape reads the five-axis array at `(0, 0, d, h, w)`, the index with the same
    row-major position, and the select there is the peak test of the box maximum against the thresholded
    value. -/
theorem result_eq_peaks (x : (⟨S1x1x64x512x512, .f32⟩ : BufTy).Contents (Elt Ideal)) :
    shapeCast _ (select (andi (cmpf (F := Ideal) (φ := .f32) .ogt (Host.reduceWindow (FloatOps.maximumf (F := Ideal) (φ := .f32)) ![1, 1, 9, 9, 9] ![1, 1, 1, 1, 1] ![0, 0, 4, 4, 4] ![0, 0, 4, 4, 4] (select (cmpf (F := Ideal) (φ := .f32) .ogt x (broadcastInDim S1x1x64x512x512 ![] bcast_S_S1x1x64x512x512 (constant (F := Ideal) S_ .f32 0x3F000000#32))) x (broadcastInDim S1x1x64x512x512 ![] bcast_S_S1x1x64x512x512 (constant (F := Ideal) S_ .f32 0x00000000#32))) (broadcastInDim S_ ![] bcast_S_S_ (constant (F := Ideal) S_ .f32 0xFF800000#32)) reduceWindows_S1x1x64x512x512_S1x1x64x512x512_w1s1p0_0_w1s1p0_0_w9s1p4_4_w9s1p4_4_w9s1p4_4 h_S_) (broadcastInDim S1x1x64x512x512 ![] bcast_S_S1x1x64x512x512 (constant (F := Ideal) S_ .f32 0x00000000#32))) (cmpf (F := Ideal) (φ := .f32) .oeq (Host.reduceWindow (FloatOps.maximumf (F := Ideal) (φ := .f32)) ![1, 1, 9, 9, 9] ![1, 1, 1, 1, 1] ![0, 0, 4, 4, 4] ![0, 0, 4, 4, 4] (select (cmpf (F := Ideal) (φ := .f32) .ogt x (broadcastInDim S1x1x64x512x512 ![] bcast_S_S1x1x64x512x512 (constant (F := Ideal) S_ .f32 0x3F000000#32))) x (broadcastInDim S1x1x64x512x512 ![] bcast_S_S1x1x64x512x512 (constant (F := Ideal) S_ .f32 0x00000000#32))) (broadcastInDim S_ ![] bcast_S_S_ (constant (F := Ideal) S_ .f32 0xFF800000#32)) reduceWindows_S1x1x64x512x512_S1x1x64x512x512_w1s1p0_0_w1s1p0_0_w9s1p4_4_w9s1p4_4_w9s1p4_4 h_S_) (select (cmpf (F := Ideal) (φ := .f32) .ogt x (broadcastInDim S1x1x64x512x512 ![] bcast_S_S1x1x64x512x512 (constant (F := Ideal) S_ .f32 0x3F000000#32))) x (broadcastInDim S1x1x64x512x512 ![] bcast_S_S1x1x64x512x512 (constant (F := Ideal) S_ .f32 0x00000000#32))))) (Host.reduceWindow (FloatOps.maximumf (F := Ideal) (φ := .f32)) ![1, 1, 9, 9, 9] ![1, 1, 1, 1, 1] ![0, 0, 4, 4, 4] ![0, 0, 4, 4, 4] (select (cmpf (F := Ideal) (φ := .f32) .ogt x (broadcastInDim S1x1x64x512x512 ![] bcast_S_S1x1x64x512x512 (constant (F := Ideal) S_ .f32 0x3F000000#32))) x (broadcastInDim S1x1x64x512x512 ![] bcast_S_S1x1x64x512x512 (constant (F := Ideal) S_ .f32 0x00000000#32))) (broadcastInDim S_ ![] bcast_S_S_ (constant (F := Ideal) S_ .f32 0xFF800000#32)) reduceWindows_S1x1x64x512x512_S1x1x64x512x512_w1s1p0_0_w1s1p0_0_w9s1p4_4_w9s1p4_4_w9s1p4_4 h_S_) (broadcastInDim S1x1x64x512x512 ![] bcast_S_S1x1x64x512x512 (constant (F := Ideal) S_ .f32 0x00000000#32))) shapeCasts_S1x1x64x512x512_S64x512x512
      = peaks x := by
  funext i
  obtain ⟨d, h, w, rfl⟩ : ∃ (d : Fin 64) (h : Fin 512) (w : Fin 512), i = ix3 d h w := ⟨i 0, i 1, i 2, eq_ix3 i⟩
  rw [peaks_apply]
  refine (shapeCast_apply _ shapeCasts_S1x1x64x512x512_S64x512x512 (ix3 d h w) (ix5 0 0 d h w) ?_).trans ?_
  · rewrite [Shape.rowMajor_val_five, Shape.rowMajor_val_three]
    show ((((0 : ℕ) * 1 + 0) * 64 + d.val) * 512 + h.val) * 512 + w.val = (d.val * 512 + h.val) * 512 + w.val
    omega
  · exact peak_of_eq _ _ _ _ _ _ (window_apply x d h w) (bcastConst_apply _ _) (thresh_apply x _)

end Cert.Peaks.Reference

end
-- ==== Proof.lean ====
/-
  Thresholded local maxima of a volume: the three-pass kernel against the one-pass reference.

  Both programs threshold a 64 × 512 × 512 volume at 1/2, take the 9 × 9 × 9 box maximum with positions
  outside the volume counting as -∞, and keep a voxel (at the box maximum) where the box maximum is
  positive and equals the thresholded value there, zero elsewhere.  The kernel takes the box maximum one
  axis at a time, in three pipelined passes over blocks that each hold one axis whole (Proof/Region0,
  Region1, Region2 over the bodies read in Proof/Payload; the run in Proof/KernelRun); the reference takes
  it in one `reduce_window`, a fold of `max` over the window's 729 positions (Proof/RefWindow, and the
  reference's result read in Proof/ReferenceValue).  On the extended reals `max` is the join of a linear
  order and -∞ its least element, so either way of folding it over the box is the least upper bound of the
  box's entries: the two results are one function, `Cert.Peaks.peaks` (Proof/Spec), with no use of the
  inputs being finite.  The idealization rewrote no operation, so `preserves` asks nothing.
-/
import proofs.«138318_j82523501625529_2_alg».proof.Defs
import proofs.«138318_j82523501625529_2_alg».proof.Proof.Gen.Kernel
import proofs.«138318_j82523501625529_2_alg».proof.Proof.Gen.Kernel.Skeleton
import proofs.«138318_j82523501625529_2_alg».proof.Proof.Gen.Kernel.Launch
import proofs.«138318_j82523501625529_2_alg».proof.Proof.Gen.Kernel.Points
import proofs.«138318_j82523501625529_2_alg».proof.Proof.Gen.Kernel.Frame
import proofs.«138318_j82523501625529_2_alg».proof.Proof.Gen.KernelIdeal
import proofs.«138318_j82523501625529_2_alg».proof.Proof.Gen.KernelIdeal.Skeleton
import proofs.«138318_j82523501625529_2_alg».proof.Proof.Gen.KernelIdeal.Launch
import proofs.«138318_j82523501625529_2_alg».proof.Proof.Gen.KernelIdeal.Points
import proofs.«138318_j82523501625529_2_alg».proof.Proof.Gen.KernelIdeal.Frame
import proofs.«138318_j82523501625529_2_alg».proof.Proof.Gen.ReferenceIdeal
import proofs.«138318_j82523501625529_2_alg».proof.Proof.Gen.Pre_finite_inputs
import proofs.«138318_j82523501625529_2_alg».proof.Proof.KernelRun
import proofs.«138318_j82523501625529_2_alg».proof.Proof.ReferenceRunPatched
import proofs.«138318_j82523501625529_2_alg».proof.Proof.ReferenceValue
import Idealize.ShloMosaic.Adequacy
import Idealize.ShloMosaic.Init

noncomputable section

namespace Cert.Proof

open Idealize.ShloMosaic Idealize.SL.Sem

/-- The word-level kernel runs and leaves its argument as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the argument both programs end with `peaks` of it in their result buffers. -/
theorem algebraic : Cert.algebraic_KernelIdeal_ReferenceIdeal := by
  intro m ρ m' ρ' _ hagree
  refine ⟨fun c => Cert.Peaks.peaks (m ((c.tc : Thread Cert.KernelIdeal.nD Cert.KernelIdeal.τ).loc Cert.KernelIdeal.main_arg0)),
    Cert.Peaks.Kernel.run m ρ, ?_⟩
  refine (θ_run Cert.ReferenceIdeal.defs _ _).mono (fun _ h c => ⟨(h c).1.trans ?_, (h c).2⟩)
    (Cert.ReferenceIdeal.ValueP.run (F := Ideal) m' ρ')
  rw [hagree c]
  exact Cert.Peaks.Reference.result_eq_peaks _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
